-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x512x512 : Shape := ⟨4, ![4, 3, 512, 512]⟩
abbrev S4x4096x2 : Shape := ⟨3, ![4, 4096, 2]⟩
abbrev S_ : Shape := ⟨0, ![]⟩

class Facts : Prop where
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  h_S_ : 0 < S_.numel

variable [Facts]

def fn {F : FTy → Type} [FloatOps F] (main_arg0 : FVec F S4x3x512x512 .f32) (main_arg1 : FVec F S4x3x512x512 .f32) (main_arg2 : FVec F S4x3x512x512 .f32) (main_arg3 : IVec S4x4096x2 32) : IVec S_ 1 :=
  let main_v0 : FVec F S4x3x512x512 .f32 := Host.absf main_arg0
  let main_cst : FVec F S_ .f32 := constant S_ .f32 0x7F800000#32
  let main_v1 : FVec F S4x3x512x512 .f32 := broadcastInDim S4x3x512x512 ![] bcast_S_S4x3x512x512 main_cst
  let main_v2 : IVec S4x3x512x512 1 := cmpf .olt main_v0 main_v1
  let main_c : IVec S_ 1 := constantI S_ 1 1#1
  let main_v3 : IVec S_ 1 := (fun x v => Host.reduce IntOp.andi x v reducesTo_S4x3x512x512_S_d0_1_2_3 h_S_) main_v2 main_c
  let main_v4 : FVec F S4x3x512x512 .f32 := Host.absf main_arg1
  let main_cst_0 : FVec F S_ .f32 := constant S_ .f32 0x7F800000#32
  let main_v5 : FVec F S4x3x512x512 .f32 := broadcastInDim S4x3x512x512 ![] bcast_S_S4x3x512x512 main_cst_0
  let main_v6 : IVec S4x3x512x512 1 := cmpf .olt main_v4 main_v5
  let main_c_1 : IVec S_ 1 := constantI S_ 1 1#1
  let main_v7 : IVec S_ 1 := (fun x v => Host.reduce IntOp.andi x v reducesTo_S4x3x512x512_S_d0_1_2_3 h_S_) main_v6 main_c_1
  let main_v8 : IVec S_ 1 := andi main_v3 main_v7
  let main_v9 : FVec F S4x3x512x512 .f32 := Host.absf main_arg2
  let main_cst_2 : FVec F S_ .f32 := constant S_ .f32 0x7F800000#32
  let main_v10 : FVec F S4x3x512x512 .f32 := broadcastInDim S4x3x512x512 ![] bcast_S_S4x3x512x512 main_cst_2
  let main_v11 : IVec S4x3x512x512 1 := cmpf .olt main_v9 main_v10
  let main_c_3 : IVec S_ 1 := constantI S_ 1 1#1
  let main_v12 : IVec S_ 1 := (fun x v => Host.reduce IntOp.andi x v reducesTo_S4x3x512x512_S_d0_1_2_3 h_S_) main_v11 main_c_3
  let main_v13 : IVec S_ 1 := andi main_v8 main_v12
  main_v13
-- ==== Kernel.lean ====
abbrev S4x3x512x512 : Shape := ⟨4, ![4, 3, 512, 512]⟩
abbrev S4x4096x2 : Shape := ⟨3, ![4, 4096, 2]⟩
abbrev S4x4096x1 : Shape := ⟨3, ![4, 4096, 1]⟩
abbrev S4x4096 : Shape := ⟨2, ![4, 4096]⟩
abbrev S_ : Shape := ⟨0, ![]⟩
abbrev S4096x1 : Shape := ⟨2, ![4096, 1]⟩
abbrev S4x4096x3 : Shape := ⟨3, ![4, 4096, 3]⟩
abbrev S4x4096x3x16x16 : Shape := ⟨5, ![4, 4096, 3, 16, 16]⟩
abbrev S4x4096x3x256 : Shape := ⟨4, ![4, 4096, 3, 256]⟩
abbrev S4x3x4096x256 : Shape := ⟨4, ![4, 3, 4096, 256]⟩
abbrev S49152x256 : Shape := ⟨2, ![49152, 256]⟩
abbrev S1x1 : Shape := ⟨2, ![1, 1]⟩
abbrev S2048x256 : Shape := ⟨2, ![2048, 256]⟩
abbrev S2048 : Shape := ⟨1, ![2048]⟩
abbrev S2048x1 : Shape := ⟨2, ![2048, 1]⟩
abbrev S1 : Shape := ⟨1, ![1]⟩

abbrev nBuf : Space → Nat
  | .hbm => 90
  | .vmem => 7
  | .smem => 0
  | _ => 0

abbrev bufTy : (tb : Table) → Fin (tcTables nBuf tb) → BufTy
  | .hbm, ⟨0, _⟩ => ⟨S4x3x512x512, .f32⟩
  | .hbm, ⟨1, _⟩ => ⟨S4x3x512x512, .f32⟩
  | .hbm, ⟨2, _⟩ => ⟨S4x3x512x512, .f32⟩
  | .hbm, ⟨3, _⟩ => ⟨S4x4096x2, .i32⟩
  | .hbm, ⟨4, _⟩ => ⟨S4x4096x1, .i32⟩
  | .hbm, ⟨5, _⟩ => ⟨S4x4096, .i32⟩
  | .hbm, ⟨6, _⟩ => ⟨S4x4096x1, .i32⟩
  | .hbm, ⟨7, _⟩ => ⟨S4x4096, .i32⟩
  | .hbm, ⟨8, _⟩ => ⟨S_, .i32⟩
  | .hbm, ⟨9, _⟩ => ⟨S4x4096, .i32⟩
  | .hbm, ⟨10, _⟩ => ⟨S4x4096, .i1⟩
  | .hbm, ⟨11, _⟩ => ⟨S_, .i32⟩
  | .hbm, ⟨12, _⟩ => ⟨S4x4096, .i32⟩
  | .hbm, ⟨13, _⟩ => ⟨S4x4096, .i32⟩
  | .hbm, ⟨14, _⟩ => ⟨S4x4096, .i32⟩
  | .hbm, ⟨15, _⟩ => ⟨S_, .i32⟩
  | .hbm, ⟨16, _⟩ => ⟨S4x4096, .i32⟩
  | .hbm, ⟨17, _⟩ => ⟨S4x4096, .i1⟩
  | .hbm, ⟨18, _⟩ => ⟨S_, .i32⟩
  | .hbm, ⟨19, _⟩ => ⟨S4x4096, .i32⟩
  | .hbm, ⟨20, _⟩ => ⟨S4x4096, .i32⟩
  | .hbm, ⟨21, _⟩ => ⟨S4x4096, .i32⟩
  | .hbm, ⟨22, _⟩ => ⟨S_, .i32⟩
  | .hbm, ⟨23, _⟩ => ⟨S4096x1, .i32⟩
  | .hbm, ⟨24, _⟩ => ⟨S4x4096x1, .i32⟩
  | .hbm, ⟨25, _⟩ => ⟨S4x4096x1, .i32⟩
  | .hbm, ⟨26, _⟩ => ⟨S4x4096x1, .i32⟩
  | .hbm, ⟨27, _⟩ => ⟨S4x4096x3, .i32⟩
  | .hbm, ⟨28, _⟩ => ⟨S4x4096x3x16x16, .f32⟩
  | .hbm, ⟨29, _⟩ => ⟨S4x4096x3x256, .f32⟩
  | .hbm, ⟨30, _⟩ => ⟨S4x3x4096x256, .f32⟩
  | .hbm, ⟨31, _⟩ => ⟨S4x4096x1, .i32⟩
  | .hbm, ⟨32, _⟩ => ⟨S4x4096, .i32⟩
  | .hbm, ⟨33, _⟩ => ⟨S4x4096x1, .i32⟩
  | .hbm, ⟨34, _⟩ => ⟨S4x4096, .i32⟩
  | .hbm, ⟨35, _⟩ => ⟨S_, .i32⟩
  | .hbm, ⟨36, _⟩ => ⟨S4x4096, .i32⟩
  | .hbm, ⟨37, _⟩ => ⟨S4x4096, .i1⟩
  | .hbm, ⟨38, _⟩ => ⟨S_, .i32⟩
  | .hbm, ⟨39, _⟩ => ⟨S4x4096, .i32⟩
  | .hbm, ⟨40, _⟩ => ⟨S4x4096, .i32⟩
  | .hbm, ⟨41, _⟩ => ⟨S4x4096, .i32⟩
  | .hbm, ⟨42, _⟩ => ⟨S_, .i32⟩
  | .hbm, ⟨43, _⟩ => ⟨S4x4096, .i32⟩
  | .hbm, ⟨44, _⟩ => ⟨S4x4096, .i1⟩
  | .hbm, ⟨45, _⟩ => ⟨S_, .i32⟩
  | .hbm, ⟨46, _⟩ => ⟨S4x4096, .i32⟩
  | .hbm, ⟨47, _⟩ => ⟨S4x4096, .i32⟩
  | .hbm, ⟨48, _⟩ => ⟨S4x4096, .i32⟩
  | .hbm, ⟨49, _⟩ => ⟨S_, .i32⟩
  | .hbm, ⟨50, _⟩ => ⟨S4096x1, .i32⟩
  | .hbm, ⟨51, _⟩ => ⟨S4x4096x1, .i32⟩
  | .hbm, ⟨52, _⟩ => ⟨S4x4096x1, .i32⟩
  | .hbm, ⟨53, _⟩ => ⟨S4x4096x1, .i32⟩
  | .hbm, ⟨54, _⟩ => ⟨S4x4096x3, .i32⟩
  | .hbm, ⟨55, _⟩ => ⟨S4x4096x3x16x16, .f32⟩
  | .hbm, ⟨56, _⟩ => ⟨S4x4096x3x256, .f32⟩
  | .hbm, ⟨57, _⟩ => ⟨S4x3x4096x256, .f32⟩
  | .hbm, ⟨58, _⟩ => ⟨S4x4096x1, .i32⟩
  | .hbm, ⟨59, _⟩ => ⟨S4x4096, .i32⟩
  | .hbm, ⟨60, _⟩ => ⟨S4x4096x1, .i32⟩
  | .hbm, ⟨61, _⟩ => ⟨S4x4096, .i32⟩
  | .hbm, ⟨62, _⟩ => ⟨S_, .i32⟩
  | .hbm, ⟨63, _⟩ => ⟨S4x4096, .i32⟩
  | .hbm, ⟨64, _⟩ => ⟨S4x4096, .i1⟩
  | .hbm, ⟨65, _⟩ => ⟨S_, .i32⟩
  | .hbm, ⟨66, _⟩ => ⟨S4x4096, .i32⟩
  | .hbm, ⟨67, _⟩ => ⟨S4x4096, .i32⟩
  | .hbm, ⟨68, _⟩ => ⟨S4x4096, .i32⟩
  | .hbm, ⟨69, _⟩ => ⟨S_, .i32⟩
  | .hbm, ⟨70, _⟩ => ⟨S4x4096, .i32⟩
  | .hbm, ⟨71, _⟩ => ⟨S4x4096, .i1⟩
  | .hbm, ⟨72, _⟩ => ⟨S_, .i32⟩
  | .hbm, ⟨73, _⟩ => ⟨S4x4096, .i32⟩
  | .hbm, ⟨74, _⟩ => ⟨S4x4096, .i32⟩
  | .hbm, ⟨75, _⟩ => ⟨S4x4096, .i32⟩
  | .hbm, ⟨76, _⟩ => ⟨S_, .i32⟩
  | .hbm, ⟨77, _⟩ => ⟨S4096x1, .i32⟩
  | .hbm, ⟨78, _⟩ => ⟨S4x4096x1, .i32⟩
  | .hbm, ⟨79, _⟩ => ⟨S4x4096x1, .i32⟩
  | .hbm, ⟨80, _⟩ => ⟨S4x4096x1, .i32⟩
  | .hbm, ⟨81, _⟩ => ⟨S4x4096x3, .i32⟩
  | .hbm, ⟨82, _⟩ => ⟨S4x4096x3x16x16, .f32⟩
  | .hbm, ⟨83, _⟩ => ⟨S4x4096x3x256, .f32⟩
  | .hbm, ⟨84, _⟩ => ⟨S4x3x4096x256, .f32⟩
  | .hbm, ⟨85, _⟩ => ⟨S49152x256, .f32⟩
  | .hbm, ⟨86, _⟩ => ⟨S49152x256, .f32⟩
  | .hbm, ⟨87, _⟩ => ⟨S49152x256, .f32⟩
  | .hbm, ⟨88, _⟩ => ⟨S1x1, .f32⟩
  | .hbm, ⟨89, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x1, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_11 : Ref sig .tc := ⟨.hbm, 69, rfl⟩
abbrev main_v53 : Ref sig .tc := ⟨.hbm, 70, rfl⟩
abbrev main_v54 : Ref sig .tc := ⟨.hbm, 71, rfl⟩
abbrev main_c_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_13 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S4x4096x2_S4x4096x1_0_0_0 : S4x4096x2.Slices ![0, 0, 0] S4x4096x1
  shapeCasts_S4x4096x1_S4x4096 : S4x4096x1.ShapeCasts S4x4096
  slices_S4x4096x2_S4x4096x1_0_0_1 : S4x4096x2.Slices ![0, 0, 1] S4x4096x1
  bcast_S_S4x4096 : S_.BroadcastsInDim S4x4096 (![] : Fin 0 → Fin S4x4096.rank)
  bcast_S_S4096x1 : S_.BroadcastsInDim S4096x1 (![] : Fin 0 → Fin S4096x1.rank)
  bcast_S4x4096_S4x4096x1_0_1 : S4x4096.BroadcastsInDim S4x4096x1 (![0, 1] : Fin 2 → Fin S4x4096x1.rank)
  bcast_S4096x1_S4x4096x1_1_2 : S4096x1.BroadcastsInDim S4x4096x1 (![1, 2] : Fin 2 → Fin S4x4096x1.rank)
  concatenates_S4x4096x1_S4x4096x1_S4x4096x1_S4x4096x3_d2 : Shape.Concatenates [S4x4096x1, S4x4096x1, S4x4096x1] S4x4096x3 2
  shapeCasts_S4x4096x3x16x16_S4x4096x3x256 : S4x4096x3x16x16.ShapeCasts S4x4096x3x256
  transposes_S4x4096x3x256_S4x3x4096x256_0_2_1_3 : S4x4096x3x256.Transposes [0, 2, 1, 3] S4x3x4096x256
  shapeCasts_S4x3x4096x256_S49152x256 : S4x3x4096x256.ShapeCasts S49152x256
  inb_S1x1_S1x1_0_0 : ∀ a, (![0, 0] : Fin 2 → Nat) a + S1x1.size a ≤ S1x1.size a
  h_S1x1 : 0 < S1x1.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  reduces_S2048x1_S1 : S2048x1.Reduces [0] S1
  shapeCasts_S1_S1x1 : S1.ShapeCasts S1x1
  shapeCasts_S1x1_S1x1 : S1x1.ShapeCasts S1x1
  shapeCasts_S1x1_S_ : S1x1.ShapeCasts S_
  gather_S4x3x512x512_S4x4096x3_S4x4096x3x16x16_234_n_0_0_123_2_131616_wf : GatherDims.WF S4x3x512x512 S4x4096x3 S4x4096x3x16x16 [2, 3, 4] [] [0] [1, 2, 3] [0] 2 ![1, 3, 16, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S49152x256.size a
  hwx0_0 : ∀ i : grid0.Coords, EltTy.bits .f32 = 32 ∨ (Rect.block (s := S49152x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S49152x256.size a
  hwx0_1 : ∀ i : grid0.Coords, EltTy.bits .f32 = 32 ∨ (Rect.block (s := S49152x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S49152x256.size a
  hwx0_2 : ∀ i : grid0.Coords, EltTy.bits .f32 = 32 ∨ (Rect.block (s := S49152x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S4x3x512x512_S4x4096x3_S4x4096x3x16x16_234_n_0_0_123_2_131616 : GatherDims S4x3x512x512 S4x4096x3 S4x4096x3x16x16 where
  offsetDims := [2, 3, 4]
  collapsedSliceDims := []
  operandBatchingDims := [0]
  startIndicesBatchingDims := [0]
  startIndexMap := [1, 2, 3]
  indexVectorDim := 2
  sliceSizes := ![1, 3, 16, 16]
  wf := gather_S4x3x512x512_S4x4096x3_S4x4096x3x16x16_234_n_0_0_123_2_131616_wf

abbrev win0_0 : Pipeline.Window sig grid0 :=
  Pipeline.Window.ofSpec (Memref.whole main_v66) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v69) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x3x512x512 : Shape := ⟨4, ![4, 3, 512, 512]⟩
abbrev S4x4096x2 : Shape := ⟨3, ![4, 4096, 2]⟩
abbrev S4x4096x1 : Shape := ⟨3, ![4, 4096, 1]⟩
abbrev S4x4096 : Shape := ⟨2, ![4, 4096]⟩
abbrev S_ : Shape := ⟨0, ![]⟩
abbrev S4096x1 : Shape := ⟨2, ![4096, 1]⟩
abbrev S4x4096x3 : Shape := ⟨3, ![4, 4096, 3]⟩
abbrev S4x4096x3x16x16 : Shape := ⟨5, ![4, 4096, 3, 16, 16]⟩
abbrev S4x4096x3x256 : Shape := ⟨4, ![4, 4096, 3, 256]⟩
abbrev S4x3x4096x256 : Shape := ⟨4, ![4, 3, 4096, 256]⟩
abbrev S4x3x4096 : Shape := ⟨3, ![4, 3, 4096]⟩
abbrev S4x3x4096x1 : Shape := ⟨4, ![4, 3, 4096, 1]⟩

abbrev nBuf : Space → Nat
  | .hbm => 134
  | .vmem => 0
  | .smem => 0
  | _ => 0

abbrev hbmTy0_0 (i : Nat) : BufTy := match i % 128 with
  | 0 => ⟨S4x3x512x512, .f32⟩
  | 1 => ⟨S4x3x512x512, .f32⟩
  | 2 => ⟨S4x3x512x512, .f32⟩
  | 3 => ⟨S4x4096x2, .i32⟩
  | 4 => ⟨S4x4096x1, .i32⟩
  | 5 => ⟨S4x4096, .i32⟩
  | 6 => ⟨S4x4096x1, .i32⟩
  | 7 => ⟨S4x4096, .i32⟩
  | 8 => ⟨S_, .i32⟩
  | 9 => ⟨S4x4096, .i32⟩
  | 10 => ⟨S4x4096, .i1⟩
  | 11 => ⟨S_, .i32⟩
  | 12 => ⟨S4x4096, .i32⟩
  | 13 => ⟨S4x4096, .i32⟩
  | 14 => ⟨S4x4096, .i32⟩
  | 15 => ⟨S_, .i32⟩
  | 16 => ⟨S4x4096, .i32⟩
  | 17 => ⟨S4x4096, .i1⟩
  | 18 => ⟨S_, .i32⟩
  | 19 => ⟨S4x4096, .i32⟩
  | 20 => ⟨S4x4096, .i32⟩
  | 21 => ⟨S4x4096, .i32⟩
  | 22 => ⟨S_, .i32⟩
  | 23 => ⟨S4096x1, .i32⟩
  | 24 => ⟨S4x4096x1, .i32⟩
  | 25 => ⟨S4x4096x1, .i32⟩
  | 26 => ⟨S4x4096x1, .i32⟩
  | 27 => ⟨S4x4096x3, .i32⟩
  | 28 => ⟨S4x4096x3x16x16, .f32⟩
  | 29 => ⟨S4x4096x3x256, .f32⟩
  | 30 => ⟨S4x3x4096x256, .f32⟩
  | 31 => ⟨S4x4096x1, .i32⟩
  | 32 => ⟨S4x4096, .i32⟩
  | 33 => ⟨S4x4096x1, .i32⟩
  | 34 => ⟨S4x4096, .i32⟩
  | 35 => ⟨S_, .i32⟩
  | 36 => ⟨S4x4096, .i32⟩
  | 37 => ⟨S4x4096, .i1⟩
  | 38 => ⟨S_, .i32⟩
  | 39 => ⟨S4x4096, .i32⟩
  | 40 => ⟨S4x4096, .i32⟩
  | 41 => ⟨S4x4096, .i32⟩
  | 42 => ⟨S_, .i32⟩
  | 43 => ⟨S4x4096, .i32⟩
  | 44 => ⟨S4x4096, .i1⟩
  | 45 => ⟨S_, .i32⟩
  | 46 => ⟨S4x4096, .i32⟩
  | 47 => ⟨S4x4096, .i32⟩
  | 48 => ⟨S4x4096, .i32⟩
  | 49 => ⟨S_, .i32⟩
  | 50 => ⟨S4096x1, .i32⟩
  | 51 => ⟨S4x4096x1, .i32⟩
  | 52 => ⟨S4x4096x1, .i32⟩
  | 53 => ⟨S4x4096x1, .i32⟩
  | 54 => ⟨S4x4096x3, .i32⟩
  | 55 => ⟨S4x4096x3x16x16, .f32⟩
  | 56 => ⟨S4x4096x3x256, .f32⟩
  | 57 => ⟨S4x3x4096x256, .f32⟩
  | 58 => ⟨S4x4096x1, .i32⟩
  | 59 => ⟨S4x4096, .i32⟩
  | 60 => ⟨S4x4096x1, .i32⟩
  | 61 => ⟨S4x4096, .i32⟩
  | 62 => ⟨S_, .i32⟩
  | 63 => ⟨S4x4096, .i32⟩
  | 64 => ⟨S4x4096, .i1⟩
  | 65 => ⟨S_, .i32⟩
  | 66 => ⟨S4x4096, .i32⟩
  | 67 => ⟨S4x4096, .i32⟩
  | 68 => ⟨S4x4096, .i32⟩
  | 69 => ⟨S_, .i32⟩
  | 70 => ⟨S4x4096, .i32⟩
  | 71 => ⟨S4x4096, .i1⟩
  | 72 => ⟨S_, .i32⟩
  | 73 => ⟨S4x4096, .i32⟩
  | 74 => ⟨S4x4096, .i32⟩
  | 75 => ⟨S4x4096, .i32⟩
  | 76 => ⟨S_, .i32⟩
  | 77 => ⟨S4096x1, .i32⟩
  | 78 => ⟨S4x4096x1, .i32⟩
  | 79 => ⟨S4x4096x1, .i32⟩
  | 80 => ⟨S4x4096x1, .i32⟩
  | 81 => ⟨S4x4096x3, .i32⟩
  | 82 => ⟨S4x4096x3x16x16, .f32⟩
  | 83 => ⟨S4x4096x3x256, .f32⟩
  | 84 => ⟨S4x3x4096x256, .f32⟩
  | 85 => ⟨S_, .f32⟩
  | 86 => ⟨S4x3x4096, .f32⟩
  | 87 => ⟨S4x3x4096x1, .f32⟩
  | 88 => ⟨S_, .f32⟩
  | 89 => ⟨S4x3x4096x1, .f32⟩
  | 90 => ⟨S4x3x4096x1, .f32⟩
  | 91 => ⟨S_, .f32⟩
  | 92 => ⟨S4x3x4096, .f32⟩
  | 93 => ⟨S4x3x4096x1, .f32⟩
  | 94 => ⟨S_, .f32⟩
  | 95 => ⟨S4x3x4096x1, .f32⟩
  | 96 => ⟨S4x3x4096x1, .f32⟩
  | 97 => ⟨S4x3x4096x256, .f32⟩
  | 98 => ⟨S4x3x4096x256, .f32⟩
  | 99 => ⟨S4x3x4096x256, .f32⟩
  | 100 => ⟨S_, .f32⟩
  | 101 => ⟨S4x3x4096, .f32⟩
  | 102 => ⟨S4x3x4096x1, .f32⟩
  | 103 => ⟨S_, .f32⟩
  | 104 => ⟨S4x3x4096x1, .f32⟩
  | 105 => ⟨S4x3x4096x1, .f32⟩
  | 106 => ⟨S4x3x4096x1, .f32⟩
  | 107 => ⟨S4x3x4096x256, .f32⟩
  | 108 => ⟨S4x3x4096x256, .f32⟩
  | 109 => ⟨S4x3x4096x256, .f32⟩
  | 110 => ⟨S_, .f32⟩
  | 111 => ⟨S4x3x4096, .f32⟩
  | 112 => ⟨S4x3x4096x1, .f32⟩
  | 113 => ⟨S_, .f32⟩
  | 114 => ⟨S4x3x4096x1, .f32⟩
  | 115 => ⟨S4x3x4096x1, .f32⟩
  | 116 => ⟨S4x3x4096x1, .f32⟩
  | 117 => ⟨S4x3x4096x1, .f32⟩
  | 118 => ⟨S_, .f32⟩
  | 119 => ⟨S4x3x4096x1, .f32⟩
  | 120 => ⟨S4x3x4096x1, .f32⟩
  | 121 => ⟨S4x3x4096x1, .f32⟩
  | 122 => ⟨S4x3x4096x256, .f32⟩
  | 123 => ⟨S4x3x4096x256, .f32⟩
  | 124 => ⟨S4x3x4096x1, .f32⟩
  | 125 => ⟨S4x3x4096x256, .f32⟩
  | 126 => ⟨S4x3x4096x256, .f32⟩
  | 127 => ⟨S4x3x4096x256, .f32⟩
  | _ => ⟨S4x3x512x512, .f32⟩

abbrev hbmTy0_1 (i : Nat) : BufTy := match i % 128 with
  | 0 => ⟨S4x3x4096x256, .f32⟩
  | 1 => ⟨S4x3x4096x256, .f32⟩
  | 2 => ⟨S_, .f32⟩
  | 3 => ⟨S_, .f32⟩
  | 4 => ⟨S_, .f32⟩
  | 5 => ⟨S_, .f32⟩
  | _ => ⟨S4x3x512x512, .f32⟩

abbrev hbmTy (i : Nat) : BufTy := match i / 128 with
  | 0 => hbmTy0_0 i
  | 1 => hbmTy0_1 i
  | _ => ⟨S4x3x512x512, .f32⟩

abbrev bufTy : (tb : Table) → Fin (tcTables nBuf tb) → BufTy
  | .hbm, ⟨i, _⟩ => hbmTy i
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_11 : Ref sig .tc := ⟨.hbm, 69, rfl⟩
abbrev main_v53 : Ref sig .tc := ⟨.hbm, 70, rfl⟩
abbrev main_v54 : Ref sig .tc := ⟨.hbm, 71, rfl⟩
abbrev main_c_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_13 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_cst_15 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_17 : Ref sig .tc := ⟨.hbm, 100, rfl⟩
abbrev main_v77 : Ref sig .tc := ⟨.hbm, 101, rfl⟩
abbrev main_v78 : Ref sig .tc := ⟨.hbm, 102, rfl⟩
abbrev main_cst_18 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_19 : Ref sig .tc := ⟨.hbm, 110, rfl⟩
abbrev main_v85 : Ref sig .tc := ⟨.hbm, 111, rfl⟩
abbrev main_v86 : Ref sig .tc := ⟨.hbm, 112, rfl⟩
abbrev main_cst_20 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_21 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_22 : Ref sig .tc := ⟨.hbm, 130, rfl⟩
abbrev main_v102 : Ref sig .tc := ⟨.hbm, 131, rfl⟩
abbrev main_cst_23 : Ref sig .tc := ⟨.hbm, 132, rfl⟩
abbrev main_v103 : Ref sig .tc := ⟨.hbm, 133, rfl⟩

abbrev nD : Nat := 1
abbrev τ : Topo := Topo.v7x

variable {F : FTy → Type} [FloatOps F]

class Facts₀ : Prop where
  slices_S4x4096x2_S4x4096x1_0_0_0 : S4x4096x2.Slices ![0, 0, 0] S4x4096x1
  shapeCasts_S4x4096x1_S4x4096 : S4x4096x1.ShapeCasts S4x4096
  slices_S4x4096x2_S4x4096x1_0_0_1 : S4x4096x2.Slices ![0, 0, 1] S4x4096x1
  bcast_S_S4x4096 : S_.BroadcastsInDim S4x4096 (![] : Fin 0 → Fin S4x4096.rank)
  bcast_S_S4096x1 : S_.BroadcastsInDim S4096x1 (![] : Fin 0 → Fin S4096x1.rank)
  bcast_S4x4096_S4x4096x1_0_1 : S4x4096.BroadcastsInDim S4x4096x1 (![0, 1] : Fin 2 → Fin S4x4096x1.rank)
  bcast_S4096x1_S4x4096x1_1_2 : S4096x1.BroadcastsInDim S4x4096x1 (![1, 2] : Fin 2 → Fin S4x4096x1.rank)
  concatenates_S4x4096x1_S4x4096x1_S4x4096x1_S4x4096x3_d2 : Shape.Concatenates [S4x4096x1, S4x4096x1, S4x4096x1] S4x4096x3 2
  shapeCasts_S4x4096x3x16x16_S4x4096x3x256 : S4x4096x3x16x16.ShapeCasts S4x4096x3x256
  transposes_S4x4096x3x256_S4x3x4096x256_0_2_1_3 : S4x4096x3x256.Transposes [0, 2, 1, 3] S4x3x4096x256
  reducesTo_S4x3x4096x256_S4x3x4096_d3 : S4x3x4096x256.ReducesTo [3] S4x3x4096
  h_S_ : 0 < S_.numel
  bcast_S4x3x4096_S4x3x4096x1_0_1_2 : S4x3x4096.BroadcastsInDim S4x3x4096x1 (![0, 1, 2] : Fin 3 → Fin S4x3x4096x1.rank)
  bcast_S_S4x3x4096x1 : S_.BroadcastsInDim S4x3x4096x1 (![] : Fin 0 → Fin S4x3x4096x1.rank)
  bcast_S4x3x4096x1_S4x3x4096x256_0_1_2_3 : S4x3x4096x1.BroadcastsInDim S4x3x4096x256 (![0, 1, 2, 3] : Fin 4 → Fin S4x3x4096x256.rank)
  reducesTo_S4x3x4096x256_S_d0_1_2_3 : S4x3x4096x256.ReducesTo [0, 1, 2, 3] S_
  gather_S4x3x512x512_S4x4096x3_S4x4096x3x16x16_234_n_0_0_123_2_131616_wf : GatherDims.WF S4x3x512x512 S4x4096x3 S4x4096x3x16x16 [2, 3, 4] [] [0] [1, 2, 3] [0] 2 ![1, 3, 16, 16]

variable [Facts₀]

def gather_S4x3x512x512_S4x4096x3_S4x4096x3x16x16_234_n_0_0_123_2_131616 : GatherDims S4x3x512x512 S4x4096x3 S4x4096x3x16x16 where
  offsetDims := [2, 3, 4]
  collapsedSliceDims := []
  operandBatchingDims := [0]
  startIndicesBatchingDims := [0]
  startIndexMap := [1, 2, 3]
  indexVectorDim := 2
  sliceSizes := ![1, 3, 16, 16]
  wf := gather_S4x3x512x512_S4x4096x3_S4x4096x3x16x16_234_n_0_0_123_2_131616_wf

class Facts : Prop extends Facts₀ where

variable [Facts]
-- ==== Proof.Kernel.Entry.lean ====
/-
  The patch-loss program around its one region. @main is: the host lines that gather the 16×16 patches of the three
  images at the given corners and lay them out as 49152 rows of 256 pixels; the region, which walks the rows in 24
  tiles of 2048; and one host line that reads the 1×1 result as a scalar. Here: what the region finds in every buffer
  when it is entered (the contents after the earlier host lines), that those lines and the last one leave the four
  argument arrays alone, each input tile as a block of its array, and the two conditions of the body — "first tile"
  and "last tile" — in closed form over the 24 grid points.
-/
import proofs.«174180_j32177894982199_1_alg».proof.Proof.Gen.Kernel.Launch
import proofs.«174180_j32177894982199_1_alg».proof.Proof.Gen.Kernel.Skeleton
import proofs.«174180_j32177894982199_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 40000000 in
/-- The lines before the region allocate nothing. -/
theorem hostOps0_fresh : (hostOps0 : List (HloOp τ sig (Elt F))).Forall fun op => op.fresh = ∅ := by
  simp only [List.Forall]; repeat' constructor

/-- Nor does the line after it. -/
theorem hostOps1_fresh : (hostOps1 : List (HloOp τ sig (Elt F))).Forall fun op => op.fresh = ∅ := by
  simp only [List.Forall]; repeat' constructor

set_option maxHeartbeats 40000000 in
/-- @main is the earlier host lines, the region, the last host line: it reduces to the region continued by that line,
    entered at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last line touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the four arrays the region's windows are cut from (it writes the scalar result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A buffer none of the earlier host lines writes is found by the region as launched. -/
theorem V_of_not_written (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ (by
    intro op hop
    rw [List.flatten_cons, List.flatten_nil, List.append_nil] at hop
    exact h op hop)

set_option maxHeartbeats 40000000 in
/-- No host line before the region writes an argument array. -/
theorem args_not_written (b : Ref sig .tc) (hb : b = main_arg0 ∨ b = main_arg1 ∨ b = main_arg2 ∨ b = main_arg3) :
    ∀ op ∈ (hostOps0 : List (HloOp τ sig (Elt F))), Proc.devRef .tc b ∉ op.writes := by
  refine List.forall_iff_forall_mem.mp ?_
  simp only [hostOps0, List.Forall, StableHlo.nullary_writes, StableHlo.unary_writes, StableHlo.binary_writes, StableHlo.ternary_writes,
    StableHlo.reshape_writes, StableHlo.nary_writes, Finset.mem_singleton]
  rcases hb with rfl | rfl | rfl | rfl
  all_goals
    repeat' apply And.intro
    all_goals exact StableHlo.devRef_ne_of_ne (by decide)

theorem V_main_arg0 (c : Dev nD) : V m c main_arg0 = m ((c : Thread nD τ).loc main_arg0) :=
  V_of_not_written m c _ (args_not_written _ (.inl rfl))
theorem V_main_arg1 (c : Dev nD) : V m c main_arg1 = m ((c : Thread nD τ).loc main_arg1) :=
  V_of_not_written m c _ (args_not_written _ (.inr (.inl rfl)))
theorem V_main_arg2 (c : Dev nD) : V m c main_arg2 = m ((c : Thread nD τ).loc main_arg2) :=
  V_of_not_written m c _ (args_not_written _ (.inr (.inr (.inl rfl))))
theorem V_main_arg3 (c : Dev nD) : V m c main_arg3 = m ((c : Thread nD τ).loc main_arg3) :=
  V_of_not_written m c _ (args_not_written _ (.inr (.inr (.inr rfl))))

/-! ## The windows' blocks -/

/-- Window `w`'s block at point `t` — for an input, tile `t`'s 2048 rows — read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its tile at every point, for any proof data whose array is the
    region-entry contents and whose body leaves the tile in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## After the last host line -/

/-- A buffer that is no array of the region and not the scalar result holds, after the last host line, what the region
    found in it. -/
theorem tail_keeps (dats : (p : Fin 1) → (c : Dev nD) → Dat τ (Elt F) Unit ℕ (UR sig nD τ) ℕ (cfgs p) c) (c : Dev nD) (b : Ref sig .tc)
    (hb : ∀ w, Pipeline.arrRef spec0 w ≠ b) (hr : b ≠ main_v70) :
    Pipeline.afterTail₀ cfgs dats 0 (V0 m) [hostOps1] c b = V m c b := by
  unfold Pipeline.afterTail₀
  rw [StableHlo.after_of_forall_not_mem]
  · exact Pipeline.withArrays_of_ne _ c _ _ b hb
  · intro op hop
    simp only [List.flatten_cons, List.flatten_nil, List.append_nil, hostOps1, List.mem_cons, List.mem_nil_iff, or_false] at hop
    subst hop
    rw [StableHlo.reshape_writes, Finset.mem_singleton]
    exact StableHlo.devRef_ne_of_ne hr

/-- THE FRAME from a frame run: the four argument arrays are no array of the region, so the run's post has them at the
    contents after the last host line, which are the region-entry contents, which are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        ((tail_keeps m dats c main_arg0 (by decide) (by decide)).trans (V_main_arg0 m c)),
      ((h c).2 main_arg1 (Pipeline.mem_restRefs_of main_arg1 (by decide) (by decide))).trans
        ((tail_keeps m dats c main_arg1 (by decide) (by decide)).trans (V_main_arg1 m c)),
      ((h c).2 main_arg2 (Pipeline.mem_restRefs_of main_arg2 (by decide) (by decide))).trans
        ((tail_keeps m dats c main_arg2 (by decide) (by decide)).trans (V_main_arg2 m c)),
      ((h c).2 main_arg3 (Pipeline.mem_restRefs_of main_arg3 (by decide) (by decide))).trans
        ((tail_keeps m dats c main_arg3 (by decide) (by decide)).trans (V_main_arg3 m c))⟩) h

/-! ## The body's two conditions -/

/-- "This is the first tile": the body's first `if`, from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 24 = 0 :=
  (by decide +kernel : ∀ t : Fin grid0.N, cond0_0 (grid0.coords t) ↔ t.val % 24 = 0)
/-- "This is the last tile": the body's second `if`. -/
abbrev cond0_1 (i : grid0.Coords) : Prop := (Scalar.cmpi .ne (Scalar.extui (Scalar.cmpi .eq (BitVec.ofNat 32 (i 0).val) 23#32)) 0#32) = 1#1
/-- It holds at point 23 only. -/
theorem hcond0_1 : ∀ t : Fin cfg0.N, cond0_1 (grid0.coords t) ↔ t.val % 24 = 23 :=
  (by decide +kernel : ∀ t : Fin grid0.N, cond0_1 (grid0.coords t) ↔ t.val % 24 = 23)

/-! ## The staging memrefs at a point -/

/-- One staging buffer of the result window, through which its contents are stated. -/
abbrev VO0_3 : View sig .tc .vmem S1x1 .f32 := (Memref.whole cc0_stg3_0 : Memref sig .tc .vmem S1x1 .f32).view
/-- Each window's current staging memref at point `t`, as the pipeline passes it to the body, and its wholeness. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

end Cert.Kernel.Loss

end
-- ==== Proof.Kernel.RunFirst.lean ====
/-
  The body at the FIRST tile: the 1×1 running sum is set to zero, the tile's sum of absolute differences is added to it, and it is left undivided (there are more tiles).
-/
import proofs.«174180_j32177894982199_1_alg».proof.Proof.Kernel.Entry

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 4000000 in
/-- The body's triple in this case, on any whole staging memrefs: the three input tiles at their contents `x0 x1 x2`
    come back untouched, and the 1×1 result buffer ends with the listed stores written over it (last first). -/
noncomputable def runFirst (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : cond0_0 i) (hc1 : ¬cond0_1 i)
    (x0 x1 x2 : Vec F S2048x256 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__patch_loss_kernel i arg1 harg1 arg2 harg2 arg3 harg3 arg4 harg4) K } := by
  refine ⟨?_, fun E K => ?run⟩
  case run =>
    simp only [cc0__patch_loss_kernel_eq_skeleton]; unfold cc0__patch_loss_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Loss

end
-- ==== Proof.Kernel.RunMid.lean ====
/-
  The body at a MIDDLE tile: the tile's sum of absolute differences is added to the running sum the tile before left.
-/
import proofs.«174180_j32177894982199_1_alg».proof.Proof.Kernel.RunFirst

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 4000000 in
/-- The body's triple in this case, on any whole staging memrefs: the three input tiles at their contents `x0 x1 x2`
    come back untouched, and the 1×1 result buffer ends with the listed stores written over it (last first). -/
noncomputable def runMid (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : ¬cond0_1 i)
    (x0 x1 x2 : Vec F S2048x256 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__patch_loss_kernel i arg1 harg1 arg2 harg2 arg3 harg3 arg4 harg4) K } := by
  refine ⟨?_, fun E K => ?run⟩
  case run =>
    simp only [cc0__patch_loss_kernel_eq_skeleton]; unfold cc0__patch_loss_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0
    obtain rfl := harg2.eq_unread hf1
    obtain rfl := harg3.eq_unread hf2
    obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Loss

end
-- ==== Proof.Kernel.RunLast.lean ====
/-
  The body at the LAST tile: the tile's sum is added to the running sum, and the total is divided by the number of pixels, 49152 × 256.
-/
import proofs.«174180_j32177894982199_1_alg».proof.Proof.Kernel.RunMid

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

set_option maxHeartbeats 4000000 in
/-- The body's triple in this case, on any whole staging memrefs: the three input tiles at their contents `x0 x1 x2`
    come back untouched, and the 1×1 result buffer ends with the listed stores written over it (last first). -/
noncomputable def runLast (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : cond0_1 i)
    (x0 x1 x2 : Vec F S2048x256 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__patch_loss_kernel i arg1 harg1 arg2 harg2 arg3 harg3 arg4 harg4) K } := by
  refine ⟨?_, fun E K => ?run⟩
  case run =>
    simp only [cc0__patch_loss_kernel_eq_skeleton]; unfold cc0__patch_loss_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0
    obtain rfl := harg2.eq_unread hf1
    obtain rfl := harg3.eq_unread hf2
    obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.Kernel.Loss

end
-- ==== Proof.Kernel.Region.lean ====
/-
  The region of the patch-loss program, tile by tile. What the 1×1 result buffer holds after each of the 24 tiles is
  defined by recursion on the tile: after tile 0 the first case's stores over the three tiles' blocks, after a later tile
  that case's stores over the blocks and over what the tile before left (the buffer is written back only after the
  last tile, so between tiles it keeps the running sum). With that as the proof data the body's triple holds at every
  tile, the region runs, the last host line runs, and the four argument arrays end as they were launched.
-/
import proofs.«174180_j32177894982199_1_alg».proof.Proof.Kernel.RunLast

set_option maxRecDepth 16384

noncomputable section

namespace Cert.Kernel.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the result buffer -/

/-- The first case's stores cover the 1×1 buffer. -/
theorem coverFirst (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : cond0_0 i) (hc1 : ¬cond0_1 i) (x0 x1 x2 : Vec F S2048x256 .f32) (y : S1x1.Idx) :
    ∃ pc ∈ (runFirst c i arg1 harg1 arg2 harg2 arg3 harg3 arg4 harg4 hc0 hc1 x0 x1 x2).1, y ∈ pc.1.set :=
  View.cover_of_tiledL (runFirst c i arg1 harg1 arg2 harg2 arg3 harg3 arg4 harg4 hc0 hc1 x0 x1 x2).1 S1x1.size (by sl_kernel_rfl) y

/-- What the first case leaves there: its stores read back. -/
def outFirst (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : cond0_0 i) (hc1 : ¬cond0_1 i) (x0 x1 x2 : Vec F S2048x256 .f32) : Vec F S1x1 .f32 :=
  VO0_3.read (Elt F) (VO0_3.writes (Elt F) VO0_3.junk (runFirst c i arg1 harg1 arg2 harg2 arg3 harg3 arg4 harg4 hc0 hc1 x0 x1 x2).1)

theorem coverMid (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : ¬cond0_1 i) (x0 x1 x2 : Vec F S2048x256 .f32) (xo3 : Vec F S1x1 .f32) (y : S1x1.Idx) :
    ∃ pc ∈ (runMid c i arg1 harg1 arg2 harg2 arg3 harg3 arg4 harg4 hc0 hc1 x0 x1 x2 xo3).1, y ∈ pc.1.set :=
  View.cover_of_tiledL (runMid c i arg1 harg1 arg2 harg2 arg3 harg3 arg4 harg4 hc0 hc1 x0 x1 x2 xo3).1 S1x1.size (by sl_kernel_rfl) y

def outMid (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : ¬cond0_1 i) (x0 x1 x2 : Vec F S2048x256 .f32) (xo3 : Vec F S1x1 .f32) : Vec F S1x1 .f32 :=
  VO0_3.read (Elt F) (VO0_3.writes (Elt F) VO0_3.junk (runMid c i arg1 harg1 arg2 harg2 arg3 harg3 arg4 harg4 hc0 hc1 x0 x1 x2 xo3).1)

theorem coverLast (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : cond0_1 i) (x0 x1 x2 : Vec F S2048x256 .f32) (xo3 : Vec F S1x1 .f32) (y : S1x1.Idx) :
    ∃ pc ∈ (runLast c i arg1 harg1 arg2 harg2 arg3 harg3 arg4 harg4 hc0 hc1 x0 x1 x2 xo3).1, y ∈ pc.1.set :=
  View.cover_of_tiledL (runLast c i arg1 harg1 arg2 harg2 arg3 harg3 arg4 harg4 hc0 hc1 x0 x1 x2 xo3).1 S1x1.size (by sl_kernel_rfl) y

def outLast (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : cond0_1 i) (x0 x1 x2 : Vec F S2048x256 .f32) (xo3 : Vec F S1x1 .f32) : Vec F S1x1 .f32 :=
  VO0_3.read (Elt F) (VO0_3.writes (Elt F) VO0_3.junk (runLast c i arg1 harg1 arg2 harg2 arg3 harg3 arg4 harg4 hc0 hc1 x0 x1 x2 xo3).1)

/-! ## The running sum, tile by tile -/

theorem lt24 {n : ℕ} (hn : n < cfg0.N) : n < 24 := lt_of_lt_of_eq hn (show cfg0.N = 24 from N_0)

/-- A later tile is not the first. -/
theorem not_first (n : ℕ) (hn : n + 1 < cfg0.N) : ¬cond0_0 (grid0.coords ⟨n + 1, hn⟩) := fun h => by
  have h' : (n + 1) % 24 = 0 := (hcond0_0 ⟨n + 1, hn⟩).mp h
  have := lt24 hn
  omega

/-- What the result buffer holds after the body at tile `n`. -/
def outsAt0 (c : Dev nD) : (n : ℕ) → n < cfg0.N → Vec F S1x1 .f32
  | 0, hn => outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩)
      ((hcond0_0 ⟨0, hn⟩).mpr (Nat.zero_mod _)) (fun h => absurd (show 0 % 24 = 23 from (hcond0_1 ⟨0, hn⟩).mp h) (by decide))
      (iblk m c 0 ⟨0, hn⟩) (iblk m c 1 ⟨0, hn⟩) (iblk m c 2 ⟨0, hn⟩)
  | n + 1, hn =>
    if h1 : (n + 1) % 24 = 23 then
      outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
        (not_first n hn) ((hcond0_1 ⟨n + 1, hn⟩).mpr h1)
        (iblk m c 0 ⟨n + 1, hn⟩) (iblk m c 1 ⟨n + 1, hn⟩) (iblk m c 2 ⟨n + 1, hn⟩) (outsAt0 c n (Nat.lt_of_succ_lt hn))
    else
      outMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
        (not_first n hn) (fun h => h1 ((hcond0_1 ⟨n + 1, hn⟩).mp h))
        (iblk m c 0 ⟨n + 1, hn⟩) (iblk m c 1 ⟨n + 1, hn⟩) (iblk m c 2 ⟨n + 1, hn⟩) (outsAt0 c n (Nat.lt_of_succ_lt hn))

theorem outsAt0_first (c : Dev nD) (t : Fin cfg0.N) (h0 : t.val % 24 = 0) (hc0 : cond0_0 (grid0.coords t)) (hc1 : ¬cond0_1 (grid0.coords t)) :
    outsAt0 m c t.val t.isLt = outFirst c (grid0.coords t) (ms0_0 t) (hs0_0 t) (ms0_1 t) (hs0_1 t) (ms0_2 t) (hs0_2 t) (ms0_3 t) (hs0_3 t) hc0 hc1
      (iblk m c 0 t) (iblk m c 1 t) (iblk m c 2 t) := by
  obtain ⟨n, hn⟩ := t
  cases n with
  | zero => exact rfl
  | succ n => exact (by exfalso; have := lt24 hn; (try dsimp only at h0); omega)

theorem outsAt0_mid (c : Dev nD) (t : Fin cfg0.N) (h0 : ¬t.val % 24 = 0) (h1 : ¬t.val % 24 = 23) (hc0 : ¬cond0_0 (grid0.coords t)) (hc1 : ¬cond0_1 (grid0.coords t)) :
    outsAt0 m c t.val t.isLt = outMid c (grid0.coords t) (ms0_0 t) (hs0_0 t) (ms0_1 t) (hs0_1 t) (ms0_2 t) (hs0_2 t) (ms0_3 t) (hs0_3 t) hc0 hc1
      (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem outsAt0_last (c : Dev nD) (t : Fin cfg0.N) (h0 : ¬t.val % 24 = 0) (h1 : t.val % 24 = 23) (hc0 : ¬cond0_0 (grid0.coords t)) (hc1 : cond0_1 (grid0.coords t)) :
    outsAt0 m c t.val t.isLt = outLast c (grid0.coords t) (ms0_0 t) (hs0_0 t) (ms0_1 t) (hs0_1 t) (ms0_2 t) (hs0_2 t) (ms0_3 t) (hs0_3 t) hc0 hc1
      (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The arrays as the region finds them; after the body at tile `t` each input's buffer at its tile, the result buffer at
    the running sum; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later tile the result buffer holds what the body left at the tile before: it is written back only after the
    last tile. -/
theorem before0_3_later (c : Dev nD) (t : Fin cfg0.N) (h0 : ¬t.val % 24 = 0) (d) :
    (dats m 0 c).before 3 t d = (outsAt0 m c (t.val - 1) (Nat.lt_of_le_of_lt (Nat.sub_le _ _) t.isLt)) := by
  have hN : t.val < 24 := lt24 t.isLt
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic tile -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any tile: the inputs' buffers hold their tiles; the closed forms say which case the tile is in; at a later
    tile the result buffer holds the running sum; so that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 24 := lt24 t.isLt
  by_cases h0 : t.val % 24 = 0
  · have hc0 : cond0_0 (grid0.coords t) := (hcond0_0 t).mpr h0
    have hc1 : ¬cond0_1 (grid0.coords t) := fun h => by have := (hcond0_1 t).mp h; omega
    rw [outsAt0_first m c t h0 hc0 hc1]
    unfold outFirst
    iintro ⟨HΦ, Ho, ⟨%d0, H0⟩, ⟨%d1, H1⟩, ⟨%d2, H2⟩, ⟨%d3, H3⟩⟩
    iapply ((runFirst c (grid0.coords t) _ _ _ _ _ _ _ _ hc0 hc1 (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · have hc0 : ¬cond0_0 (grid0.coords t) := fun h => h0 ((hcond0_0 t).mp h)
    by_cases h1 : t.val % 24 = 23
    · have hc1 : cond0_1 (grid0.coords t) := (hcond0_1 t).mpr h1
      rw [outsAt0_last m c t h0 h1 hc0 hc1]
      simp only [before0_3_later m c t h0]
      unfold outLast
      iintro ⟨HΦ, Ho, ⟨%d0, H0⟩, ⟨%d1, H1⟩, ⟨%d2, H2⟩, ⟨%d3, H3⟩⟩
      iapply ((runLast c (grid0.coords t) _ _ _ _ _ _ _ _ hc0 hc1 (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _)
    · have hc1 : ¬cond0_1 (grid0.coords t) := fun h => h1 ((hcond0_1 t).mp h)
      rw [outsAt0_mid m c t h0 h1 hc0 hc1]
      simp only [before0_3_later m c t h0]
      unfold outMid
      iintro ⟨HΦ, Ho, ⟨%d0, H0⟩, ⟨%d1, H1⟩, ⟨%d2, H2⟩, ⟨%d3, H3⟩⟩
      iapply ((runMid c (grid0.coords t) _ _ _ _ _ _ _ _ hc0 hc1 (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverMid c _ _ _ _ _ _ _ _ _ _ _ _ _ _ _)

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; at the end the region's four
    arrays hold what the library computes from the proof data, and every other unscoped buffer what the last host line
    leaves of the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Loss

end
-- ==== Proof.KernelIdeal.Entry.lean ====
/-
  The patch-loss program around its one region. @main is: the host lines that gather the 16×16 patches of the three
  images at the given corners and lay them out as 49152 rows of 256 pixels; the region, which walks the rows in 24
  tiles of 2048; and one host line that reads the 1×1 result as a scalar. Here: what the region finds in every buffer
  when it is entered (the contents after the earlier host lines), that those lines and the last one leave the four
  argument arrays alone, each input tile as a block of its array, and the two conditions of the body — "first tile"
  and "last tile" — in closed form over the 24 grid points.
-/
import proofs.«174180_j32177894982199_1_alg».proof.Proof.Gen.KernelIdeal.Launch
import proofs.«174180_j32177894982199_1_alg».proof.Proof.Gen.KernelIdeal.Skeleton
import proofs.«174180_j32177894982199_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 40000000 in
/-- The lines before the region allocate nothing. -/
theorem hostOps0_fresh : (hostOps0 : List (HloOp τ sig (Elt F))).Forall fun op => op.fresh = ∅ := by
  simp only [List.Forall]; repeat' constructor

/-- Nor does the line after it. -/
theorem hostOps1_fresh : (hostOps1 : List (HloOp τ sig (Elt F))).Forall fun op => op.fresh = ∅ := by
  simp only [List.Forall]; repeat' constructor

set_option maxHeartbeats 40000000 in
/-- @main is the earlier host lines, the region, the last host line: it reduces to the region continued by that line,
    entered at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last line touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes none of the four arrays the region's windows are cut from (it writes the scalar result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A buffer none of the earlier host lines writes is found by the region as launched. -/
theorem V_of_not_written (c : Dev nD) (b : Ref sig .tc)
    (h : ∀ op ∈ (hostOps0 : List (HloOp τ sig (Elt F))), Proc.devRef .tc b ∉ op.writes) :
    V m c b = m ((c : Thread nD τ).loc b) :=
  StableHlo.after_of_forall_not_mem (b := Proc.devRef .tc b) _ _ (by
    intro op hop
    rw [List.flatten_cons, List.flatten_nil, List.append_nil] at hop
    exact h op hop)

set_option maxHeartbeats 40000000 in
/-- No host line before the region writes an argument array. -/
theorem args_not_written (b : Ref sig .tc) (hb : b = main_arg0 ∨ b = main_arg1 ∨ b = main_arg2 ∨ b = main_arg3) :
    ∀ op ∈ (hostOps0 : List (HloOp τ sig (Elt F))), Proc.devRef .tc b ∉ op.writes := by
  refine List.forall_iff_forall_mem.mp ?_
  simp only [hostOps0, List.Forall, StableHlo.nullary_writes, StableHlo.unary_writes, StableHlo.binary_writes, StableHlo.ternary_writes,
    StableHlo.reshape_writes, StableHlo.nary_writes, Finset.mem_singleton]
  rcases hb with rfl | rfl | rfl | rfl
  all_goals
    repeat' apply And.intro
    all_goals exact StableHlo.devRef_ne_of_ne (by decide)

theorem V_main_arg0 (c : Dev nD) : V m c main_arg0 = m ((c : Thread nD τ).loc main_arg0) :=
  V_of_not_written m c _ (args_not_written _ (.inl rfl))
theorem V_main_arg1 (c : Dev nD) : V m c main_arg1 = m ((c : Thread nD τ).loc main_arg1) :=
  V_of_not_written m c _ (args_not_written _ (.inr (.inl rfl)))
theorem V_main_arg2 (c : Dev nD) : V m c main_arg2 = m ((c : Thread nD τ).loc main_arg2) :=
  V_of_not_written m c _ (args_not_written _ (.inr (.inr (.inl rfl))))
theorem V_main_arg3 (c : Dev nD) : V m c main_arg3 = m ((c : Thread nD τ).loc main_arg3) :=
  V_of_not_written m c _ (args_not_written _ (.inr (.inr (.inr rfl))))

/-! ## The windows' blocks -/

/-- Window `w`'s block at point `t` — for an input, tile `t`'s 2048 rows — read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its tile at every point, for any proof data whose array is the
    region-entry contents and whose body leaves the tile in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## After the last host line -/

/-- A buffer that is no array of the region and not the scalar result holds, after the last host line, what the region
    found in it. -/
theorem tail_keeps (dats : (p : Fin 1) → (c : Dev nD) → Dat τ (Elt F) Unit ℕ (UR sig nD τ) ℕ (cfgs p) c) (c : Dev nD) (b : Ref sig .tc)
    (hb : ∀ w, Pipeline.arrRef spec0 w ≠ b) (hr : b ≠ main_v70) :
    Pipeline.afterTail₀ cfgs dats 0 (V0 m) [hostOps1] c b = V m c b := by
  unfold Pipeline.afterTail₀
  rw [StableHlo.after_of_forall_not_mem]
  · exact Pipeline.withArrays_of_ne _ c _ _ b hb
  · intro op hop
    simp only [List.flatten_cons, List.flatten_nil, List.append_nil, hostOps1, List.mem_cons, List.mem_nil_iff, or_false] at hop
    subst hop
    rw [StableHlo.reshape_writes, Finset.mem_singleton]
    exact StableHlo.devRef_ne_of_ne hr

/-- THE FRAME from a frame run: the four argument arrays are no array of the region, so the run's post has them at the
    contents after the last host line, which are the region-entry contents, which are the launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans
        ((tail_keeps m dats c main_arg0 (by decide) (by decide)).trans (V_main_arg0 m c)),
      ((h c).2 main_arg1 (Pipeline.mem_restRefs_of main_arg1 (by decide) (by decide))).trans
        ((tail_keeps m dats c main_arg1 (by decide) (by decide)).trans (V_main_arg1 m c)),
      ((h c).2 main_arg2 (Pipeline.mem_restRefs_of main_arg2 (by decide) (by decide))).trans
        ((tail_keeps m dats c main_arg2 (by decide) (by decide)).trans (V_main_arg2 m c)),
      ((h c).2 main_arg3 (Pipeline.mem_restRefs_of main_arg3 (by decide) (by decide))).trans
        ((tail_keeps m dats c main_arg3 (by decide) (by decide)).trans (V_main_arg3 m c))⟩) h

/-! ## The body's two conditions -/

/-- "This is the first tile": the body's first `if`, from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 24 = 0 :=
  (by decide +kernel : ∀ t : Fin grid0.N, cond0_0 (grid0.coords t) ↔ t.val % 24 = 0)
/-- "This is the last tile": the body's second `if`. -/
abbrev cond0_1 (i : grid0.Coords) : Prop := (Scalar.cmpi .ne (Scalar.extui (Scalar.cmpi .eq (BitVec.ofNat 32 (i 0).val) 23#32)) 0#32) = 1#1
/-- It holds at point 23 only. -/
theorem hcond0_1 : ∀ t : Fin cfg0.N, cond0_1 (grid0.coords t) ↔ t.val % 24 = 23 :=
  (by decide +kernel : ∀ t : Fin grid0.N, cond0_1 (grid0.coords t) ↔ t.val % 24 = 23)

/-! ## The staging memrefs at a point -/

/-- One staging buffer of the result window, through which its contents are stated. -/
abbrev VO0_3 : View sig .tc .vmem S1x1 .f32 := (Memref.whole cc0_stg3_0 : Memref sig .tc .vmem S1x1 .f32).view
/-- Each window's current staging memref at point `t`, as the pipeline passes it to the body, and its wholeness. -/
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)

end Cert.KernelIdeal.Loss

end
-- ==== Proof.KernelIdeal.RunFirst.lean ====
/-
  The body at the FIRST tile: the 1×1 running sum is set to zero, the tile's sum of absolute differences is added to it, and it is left undivided (there are more tiles).
-/
import proofs.«174180_j32177894982199_1_alg».proof.Proof.KernelIdeal.Entry

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
/-- The body's triple in this case, on any whole staging memrefs: the three input tiles at their contents `x0 x1 x2`
    come back untouched, and the 1×1 result buffer ends with the listed stores written over it (last first). -/
noncomputable def runFirst (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : cond0_0 i) (hc1 : ¬cond0_1 i)
    (x0 x1 x2 : Vec F S2048x256 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__patch_loss_kernel i arg1 harg1 arg2 harg2 arg3 harg3 arg4 harg4) K } := by
  refine ⟨?_, fun E K => ?run⟩
  case run =>
    simp only [cc0__patch_loss_kernel_eq_skeleton]; unfold cc0__patch_loss_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0
    obtain rfl := harg2.eq_unread hf1
    obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Loss

end
-- ==== Proof.KernelIdeal.RunMid.lean ====
/-
  The body at a MIDDLE tile: the tile's sum of absolute differences is added to the running sum the tile before left.
-/
import proofs.«174180_j32177894982199_1_alg».proof.Proof.KernelIdeal.RunFirst

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
/-- The body's triple in this case, on any whole staging memrefs: the three input tiles at their contents `x0 x1 x2`
    come back untouched, and the 1×1 result buffer ends with the listed stores written over it (last first). -/
noncomputable def runMid (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : ¬cond0_1 i)
    (x0 x1 x2 : Vec F S2048x256 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__patch_loss_kernel i arg1 harg1 arg2 harg2 arg3 harg3 arg4 harg4) K } := by
  refine ⟨?_, fun E K => ?run⟩
  case run =>
    simp only [cc0__patch_loss_kernel_eq_skeleton]; unfold cc0__patch_loss_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0
    obtain rfl := harg2.eq_unread hf1
    obtain rfl := harg3.eq_unread hf2
    obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Loss

end
-- ==== Proof.KernelIdeal.RunLast.lean ====
/-
  The body at the LAST tile: the tile's sum is added to the running sum, and the total is divided by the number of pixels, 49152 × 256.
-/
import proofs.«174180_j32177894982199_1_alg».proof.Proof.KernelIdeal.RunMid

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

set_option maxHeartbeats 4000000 in
/-- The body's triple in this case, on any whole staging memrefs: the three input tiles at their contents `x0 x1 x2`
    come back untouched, and the 1×1 result buffer ends with the listed stores written over it (last first). -/
noncomputable def runLast (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : cond0_1 i)
    (x0 x1 x2 : Vec F S2048x256 .f32) (xo3 : Vec F S1x1 .f32) :
    { L3 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xo3
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)) -∗ K ⟨⟩))
          ⊢ wp frame (wpE (defs₀ (F := F)) Variants.none c none) E (cc0__patch_loss_kernel i arg1 harg1 arg2 harg2 arg3 harg3 arg4 harg4) K } := by
  refine ⟨?_, fun E K => ?run⟩
  case run =>
    simp only [cc0__patch_loss_kernel_eq_skeleton]; unfold cc0__patch_loss_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg1.eq_unread hf0
    obtain rfl := harg2.eq_unread hf1
    obtain rfl := harg3.eq_unread hf2
    obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

end Cert.KernelIdeal.Loss

end
-- ==== Proof.KernelIdeal.Region.lean ====
/-
  The region of the patch-loss program, tile by tile. What the 1×1 result buffer holds after each of the 24 tiles is
  defined by recursion on the tile: after tile 0 the first case's stores over the three tiles' blocks, after a later tile
  that case's stores over the blocks and over what the tile before left (the buffer is written back only after the
  last tile, so between tiles it keeps the running sum). With that as the proof data the body's triple holds at every
  tile, the region runs, the last host line runs, and the four argument arrays end as they were launched.
-/
import proofs.«174180_j32177894982199_1_alg».proof.Proof.KernelIdeal.RunLast

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the result buffer -/

/-- The first case's stores cover the 1×1 buffer. -/
theorem coverFirst (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : cond0_0 i) (hc1 : ¬cond0_1 i) (x0 x1 x2 : Vec F S2048x256 .f32) (y : S1x1.Idx) :
    ∃ pc ∈ (runFirst c i arg1 harg1 arg2 harg2 arg3 harg3 arg4 harg4 hc0 hc1 x0 x1 x2).1, y ∈ pc.1.set :=
  View.cover_of_tiledL (runFirst c i arg1 harg1 arg2 harg2 arg3 harg3 arg4 harg4 hc0 hc1 x0 x1 x2).1 S1x1.size (by sl_kernel_rfl) y

/-- What the first case leaves there: its stores read back. -/
def outFirst (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : cond0_0 i) (hc1 : ¬cond0_1 i) (x0 x1 x2 : Vec F S2048x256 .f32) : Vec F S1x1 .f32 :=
  VO0_3.read (Elt F) (VO0_3.writes (Elt F) VO0_3.junk (runFirst c i arg1 harg1 arg2 harg2 arg3 harg3 arg4 harg4 hc0 hc1 x0 x1 x2).1)

theorem coverMid (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : ¬cond0_1 i) (x0 x1 x2 : Vec F S2048x256 .f32) (xo3 : Vec F S1x1 .f32) (y : S1x1.Idx) :
    ∃ pc ∈ (runMid c i arg1 harg1 arg2 harg2 arg3 harg3 arg4 harg4 hc0 hc1 x0 x1 x2 xo3).1, y ∈ pc.1.set :=
  View.cover_of_tiledL (runMid c i arg1 harg1 arg2 harg2 arg3 harg3 arg4 harg4 hc0 hc1 x0 x1 x2 xo3).1 S1x1.size (by sl_kernel_rfl) y

def outMid (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : ¬cond0_1 i) (x0 x1 x2 : Vec F S2048x256 .f32) (xo3 : Vec F S1x1 .f32) : Vec F S1x1 .f32 :=
  VO0_3.read (Elt F) (VO0_3.writes (Elt F) VO0_3.junk (runMid c i arg1 harg1 arg2 harg2 arg3 harg3 arg4 harg4 hc0 hc1 x0 x1 x2 xo3).1)

theorem coverLast (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : cond0_1 i) (x0 x1 x2 : Vec F S2048x256 .f32) (xo3 : Vec F S1x1 .f32) (y : S1x1.Idx) :
    ∃ pc ∈ (runLast c i arg1 harg1 arg2 harg2 arg3 harg3 arg4 harg4 hc0 hc1 x0 x1 x2 xo3).1, y ∈ pc.1.set :=
  View.cover_of_tiledL (runLast c i arg1 harg1 arg2 harg2 arg3 harg3 arg4 harg4 hc0 hc1 x0 x1 x2 xo3).1 S1x1.size (by sl_kernel_rfl) y

def outLast (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S1x1 .f32) (harg4 : arg4.IsWhole)
    (hc0 : ¬cond0_0 i) (hc1 : cond0_1 i) (x0 x1 x2 : Vec F S2048x256 .f32) (xo3 : Vec F S1x1 .f32) : Vec F S1x1 .f32 :=
  VO0_3.read (Elt F) (VO0_3.writes (Elt F) VO0_3.junk (runLast c i arg1 harg1 arg2 harg2 arg3 harg3 arg4 harg4 hc0 hc1 x0 x1 x2 xo3).1)

/-! ## The running sum, tile by tile -/

theorem lt24 {n : ℕ} (hn : n < cfg0.N) : n < 24 := lt_of_lt_of_eq hn (show cfg0.N = 24 from N_0)

/-- A later tile is not the first. -/
theorem not_first (n : ℕ) (hn : n + 1 < cfg0.N) : ¬cond0_0 (grid0.coords ⟨n + 1, hn⟩) := fun h => by
  have h' : (n + 1) % 24 = 0 := (hcond0_0 ⟨n + 1, hn⟩).mp h
  have := lt24 hn
  omega

/-- What the result buffer holds after the body at tile `n`. -/
def outsAt0 (c : Dev nD) : (n : ℕ) → n < cfg0.N → Vec F S1x1 .f32
  | 0, hn => outFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩)
      ((hcond0_0 ⟨0, hn⟩).mpr (Nat.zero_mod _)) (fun h => absurd (show 0 % 24 = 23 from (hcond0_1 ⟨0, hn⟩).mp h) (by decide))
      (iblk m c 0 ⟨0, hn⟩) (iblk m c 1 ⟨0, hn⟩) (iblk m c 2 ⟨0, hn⟩)
  | n + 1, hn =>
    if h1 : (n + 1) % 24 = 23 then
      outLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
        (not_first n hn) ((hcond0_1 ⟨n + 1, hn⟩).mpr h1)
        (iblk m c 0 ⟨n + 1, hn⟩) (iblk m c 1 ⟨n + 1, hn⟩) (iblk m c 2 ⟨n + 1, hn⟩) (outsAt0 c n (Nat.lt_of_succ_lt hn))
    else
      outMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩)
        (not_first n hn) (fun h => h1 ((hcond0_1 ⟨n + 1, hn⟩).mp h))
        (iblk m c 0 ⟨n + 1, hn⟩) (iblk m c 1 ⟨n + 1, hn⟩) (iblk m c 2 ⟨n + 1, hn⟩) (outsAt0 c n (Nat.lt_of_succ_lt hn))

theorem outsAt0_first (c : Dev nD) (t : Fin cfg0.N) (h0 : t.val % 24 = 0) (hc0 : cond0_0 (grid0.coords t)) (hc1 : ¬cond0_1 (grid0.coords t)) :
    outsAt0 m c t.val t.isLt = outFirst c (grid0.coords t) (ms0_0 t) (hs0_0 t) (ms0_1 t) (hs0_1 t) (ms0_2 t) (hs0_2 t) (ms0_3 t) (hs0_3 t) hc0 hc1
      (iblk m c 0 t) (iblk m c 1 t) (iblk m c 2 t) := by
  obtain ⟨n, hn⟩ := t
  cases n with
  | zero => exact rfl
  | succ n => exact (by exfalso; have := lt24 hn; (try dsimp only at h0); omega)

theorem outsAt0_mid (c : Dev nD) (t : Fin cfg0.N) (h0 : ¬t.val % 24 = 0) (h1 : ¬t.val % 24 = 23) (hc0 : ¬cond0_0 (grid0.coords t)) (hc1 : ¬cond0_1 (grid0.coords t)) :
    outsAt0 m c t.val t.isLt = outMid c (grid0.coords t) (ms0_0 t) (hs0_0 t) (ms0_1 t) (hs0_1 t) (ms0_2 t) (hs0_2 t) (ms0_3 t) (hs0_3 t) hc0 hc1
      (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

theorem outsAt0_last (c : Dev nD) (t : Fin cfg0.N) (h0 : ¬t.val % 24 = 0) (h1 : t.val % 24 = 23) (hc0 : ¬cond0_0 (grid0.coords t)) (hc1 : cond0_1 (grid0.coords t)) :
    outsAt0 m c t.val t.isLt = outLast c (grid0.coords t) (ms0_0 t) (hs0_0 t) (ms0_1 t) (hs0_1 t) (ms0_2 t) (hs0_2 t) (ms0_3 t) (hs0_3 t) hc0 hc1
      (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The arrays as the region finds them; after the body at tile `t` each input's buffer at its tile, the result buffer at
    the running sum; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later tile the result buffer holds what the body left at the tile before: it is written back only after the
    last tile. -/
theorem before0_3_later (c : Dev nD) (t : Fin cfg0.N) (h0 : ¬t.val % 24 = 0) (d) :
    (dats m 0 c).before 3 t d = (outsAt0 m c (t.val - 1) (Nat.lt_of_le_of_lt (Nat.sub_le _ _) t.isLt)) := by
  have hN : t.val < 24 := lt24 t.isLt
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic tile -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any tile: the inputs' buffers hold their tiles; the closed forms say which case the tile is in; at a later
    tile the result buffer holds the running sum; so that case's triple applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 24 := lt24 t.isLt
  by_cases h0 : t.val % 24 = 0
  · have hc0 : cond0_0 (grid0.coords t) := (hcond0_0 t).mpr h0
    have hc1 : ¬cond0_1 (grid0.coords t) := fun h => by have := (hcond0_1 t).mp h; omega
    rw [outsAt0_first m c t h0 hc0 hc1]
    unfold outFirst
    iintro ⟨HΦ, Ho, ⟨%d0, H0⟩, ⟨%d1, H1⟩, ⟨%d2, H2⟩, ⟨%d3, H3⟩⟩
    iapply ((runFirst c (grid0.coords t) _ _ _ _ _ _ _ _ hc0 hc1 (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · have hc0 : ¬cond0_0 (grid0.coords t) := fun h => h0 ((hcond0_0 t).mp h)
    by_cases h1 : t.val % 24 = 23
    · have hc1 : cond0_1 (grid0.coords t) := (hcond0_1 t).mpr h1
      rw [outsAt0_last m c t h0 h1 hc0 hc1]
      simp only [before0_3_later m c t h0]
      unfold outLast
      iintro ⟨HΦ, Ho, ⟨%d0, H0⟩, ⟨%d1, H1⟩, ⟨%d2, H2⟩, ⟨%d3, H3⟩⟩
      iapply ((runLast c (grid0.coords t) _ _ _ _ _ _ _ _ hc0 hc1 (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _)
    · have hc1 : ¬cond0_1 (grid0.coords t) := fun h => h1 ((hcond0_1 t).mp h)
      rw [outsAt0_mid m c t h0 h1 hc0 hc1]
      simp only [before0_3_later m c t h0]
      unfold outMid
      iintro ⟨HΦ, Ho, ⟨%d0, H0⟩, ⟨%d1, H1⟩, ⟨%d2, H2⟩, ⟨%d3, H3⟩⟩
      iapply ((runMid c (grid0.coords t) _ _ _ _ _ _ _ _ hc0 hc1 (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverMid c _ _ _ _ _ _ _ _ _ _ _ _ _ _ _)

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; at the end the region's four
    arrays hold what the library computes from the proof data, and every other unscoped buffer what the last host line
    leaves of the region-entry contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Loss

end
-- ==== Proof.KernelIdeal.Cases.lean ====
/-
  What each of the three cases of the body leaves in the 1×1 result buffer, as a value. With `tileAdd x0 x1 x2 acc` the
  body's one arithmetic step — `acc` plus the sum, over the tile's 2048 rows and 256 pixels, of the absolute difference
  between the fused patch and the deviation-weighted blend of the two source patches —, the first tile leaves
  `tileAdd` of the zero it has just stored, a middle tile `tileAdd` of the running sum, and the last tile that sum
  divided by the number of pixels.
-/
import proofs.«174180_j32177894982199_1_alg».proof.Proof.KernelIdeal.Region
import Idealize.ShloMosaic.Lib.Pipeline.Value

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen

variable {F : FTy → Type} [FloatOps F]

theorem hz : (![0, 0] : Fin 2 → Nat) = fun _ => 0 := funext fun a => by fin_cases a <;> rfl

/-- The body's arithmetic at one tile: the running sum `acc` plus the tile's sum of absolute differences. -/
def tileAdd (x0 x1 x2 : Vec F S2048x256 .f32) (acc : Vec F S1x1 .f32) : Vec F S1x1 .f32 :=
  k0_pay1 (k0_pay4 x0) (k0_pay6 x2) (k0_pay10 x1 x2) (k0_pay11 x1 x2) acc

/-- The first tile: the zero is stored, read back, and the tile's sum added to it. -/
theorem valFirst (c : Dev nD) (i : grid0.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S1x1 .f32) (h4 : a4.IsWhole)
    (hc0 : cond0_0 i) (hc1 : ¬cond0_1 i) (x0 x1 x2 : Vec F S2048x256 .f32) :
    outFirst c i a1 h1 a2 h2 a3 h3 a4 h4 hc0 hc1 x0 x1 x2 = tileAdd x0 x1 x2 (k0_pay3 (F := F)) := by
  unfold outFirst tileAdd
  rw [View.read_writes_eq_canon _ _ _ (coverFirst c i a1 h1 a2 h2 a3 h3 a4 h4 hc0 hc1 x0 x1 x2)]
  unfold runFirst
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S2048x256) hz]

/-- A middle tile: the tile's sum is added to what the tile before left. -/
theorem valMid (c : Dev nD) (i : grid0.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S1x1 .f32) (h4 : a4.IsWhole)
    (hc0 : ¬cond0_0 i) (hc1 : ¬cond0_1 i) (x0 x1 x2 : Vec F S2048x256 .f32) (xo : Vec F S1x1 .f32) :
    outMid c i a1 h1 a2 h2 a3 h3 a4 h4 hc0 hc1 x0 x1 x2 xo = tileAdd x0 x1 x2 xo := by
  unfold outMid tileAdd
  rw [View.read_writes_eq_canon _ _ _ (coverMid c i a1 h1 a2 h2 a3 h3 a4 h4 hc0 hc1 x0 x1 x2 xo)]
  unfold runMid
  dsimp only
  sl_unfold_words
  rw [View.canon_unit_zero (S := S1x1) hz]
  simp only [View.readAt_eq_ld, h1.read_unread, h2.read_unread, h3.read_unread, h4.read_unread, View.ld_unit_zero (S := S2048x256) hz,
    View.ld_unit_zero (S := S1x1) hz]

/-- The last tile: the same, then the total is read back and divided. -/
theorem valLast (c : Dev nD) (i : grid0.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S1x1 .f32) (h4 : a4.IsWhole)
    (hc0 : ¬cond0_0 i) (hc1 : cond0_1 i) (x0 x1 x2 : Vec F S2048x256 .f32) (xo : Vec F S1x1 .f32) :
    outLast c i a1 h1 a2 h2 a3 h3 a4 h4 hc0 hc1 x0 x1 x2 xo = k0_pay2 (tileAdd x0 x1 x2 xo) := by
  unfold outLast tileAdd
  rw [View.read_writes_eq_canon _ _ _ (coverLast c i a1 h1 a2 h2 a3 h3 a4 h4 hc0 hc1 x0 x1 x2 xo)]
  unfold runLast
  dsimp only
  sl_unfold_words
  rw [View.canon_cons_unit_zero (S := S1x1) hz, View.readCov_unit_zero (S := S1x1) _ hz]
  simp only [View.readAt_eq_ld, h1.read_unread, h2.read_unread, h3.read_unread, h4.read_unread, View.ld_unit_zero (S := S2048x256) hz,
    View.ld_unit_zero (S := S1x1) hz]

end Cert.KernelIdeal.Loss

end
-- ==== Proof.Spec.lean ====
/-
  The patch loss as plain mathematics on the extended reals. A row is the 256 pixels of one patch of one channel. Its
  mean is its sum over 256, its spread the square root of its mean squared deviation. For three rows — the fused
  patch and the two source patches — the gap at a pixel is the absolute difference between the fused pixel and the blend
  of the two source pixels weighted by each source's share of the total spread (a tiny constant added to the total).
  The loss is the sum of the gaps over all rows and pixels, divided by their number. Also here: the two ways of running
  through the 49152 rows — as 24 tiles of 2048, and through the row-major recoding of (image, channel, patch) — visit
  every row once, so the two sums of any quantity over them are equal (addition of extended reals is commutative and
  associative; no finiteness is used).
-/
import Idealize.ShloMosaic.PureOps.Ideal
import Idealize.ShloMosaic.PureOps.Ideal.Laws
import Idealize.ShloMosaic.Lib.ValueIdx

noncomputable section

open scoped BigOperators

namespace Cert.PatchLoss

open Idealize.ShloMosaic Idealize.ShloMosaic.ValueIdx

/-- 256, the pixels of a patch. -/
abbrev c256 : EReal := Ideal.ofBits .f32 0x43800000#32
/-- The tiny constant added to the total spread (the single-precision word nearest 1e-6, the same on both sides). -/
abbrev tiny : EReal := Ideal.ofBits .f32 0x358637BD#32
/-- 49152 × 256 = 12582912, the number of pixels. -/
abbrev count : EReal := Ideal.ofBits .f32 0x4B400000#32

/-- A row's mean. -/
def mean (a : Fin 256 → EReal) : EReal := Ideal.div (∑ k : Fin 256, a k) c256
/-- A row's spread: the root of its mean squared deviation. -/
def spread (a : Fin 256 → EReal) : EReal :=
  Ideal.sqrt (Ideal.div (∑ k : Fin 256, (a k - mean a) * (a k - mean a)) c256)
/-- The total spread of the two source rows, plus the tiny constant. -/
def total (a1 a2 : Fin 256 → EReal) : EReal := spread a1 + spread a2 + tiny
/-- The blend of the two source rows at a pixel. -/
def blend (a1 a2 : Fin 256 → EReal) (k : Fin 256) : EReal :=
  Ideal.div (spread a1) (total a1 a2) * a1 k + Ideal.div (spread a2) (total a1 a2) * a2 k
/-- The gap at a pixel: |fused − blend|. -/
def gap (a0 a1 a2 : Fin 256 → EReal) (k : Fin 256) : EReal :=
  max (a0 k - blend a1 a2 k) (-(a0 k - blend a1 a2 k))
/-- A row's sum of gaps. -/
def rowLoss (a0 a1 a2 : Fin 256 → EReal) : EReal := ∑ k : Fin 256, gap a0 a1 a2 k

/-- Row `R` of a 49152 × 256 array. -/
def row2 (q : (⟨2, ![49152, 256]⟩ : Shape).Idx → EReal) (R : Fin 49152) : Fin 256 → EReal := fun k => q (ix2 R k)
/-- The loss of three 49152 × 256 arrays: the sum of the rows' sums of gaps. -/
def sumRows (q0 q1 q2 : (⟨2, ![49152, 256]⟩ : Shape).Idx → EReal) : EReal :=
  ∑ R : Fin 49152, rowLoss (row2 q0 R) (row2 q1 R) (row2 q2 R)

/-- Row `r` of tile `t` is row `2048 t + r`. -/
abbrev tileRow (t : Fin 24) (r : Fin 2048) : Fin 49152 :=
  ⟨t.val * 2048 + r.val, by have := t.isLt; have := r.isLt; omega⟩

/-- The 24 tiles of 2048 rows are the 49152 rows, each once. -/
theorem sum_tiles {M : Type*} [AddCommMonoid M] (g : Fin 49152 → M) :
    ∑ t : Fin 24, ∑ r : Fin 2048, g (tileRow t r) = ∑ R : Fin 49152, g R := by
  rw [← Fintype.sum_prod_type']
  refine Fintype.sum_equiv (finProdFinEquiv (m := 24) (n := 2048)) _ _ fun x => congrArg g (Fin.ext ?_)
  obtain ⟨t, r⟩ := x
  show t.val * 2048 + r.val = r.val + 2048 * t.val
  omega

end Cert.PatchLoss

end
-- ==== Proof.KernelIdeal.Tile.lean ====
/-
  The body's arithmetic at one tile, read at the extended reals. Of a 2048 × 256 tile of each of the three patch arrays
  the body forms, row by row, the two source rows' means and spreads, the blend, the gap at every pixel, sums the gaps
  along the rows and then down the column, and adds the result to the running sum: `tileAdd x0 x1 x2 acc` is `acc` plus
  the sum over the tile's rows of the row's sum of gaps.
-/
import proofs.«174180_j32177894982199_1_alg».proof.Proof.KernelIdeal.Cases
import proofs.«174180_j32177894982199_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Idealize.ShloMosaic.ValueIdx Cert.PatchLoss

/-! ## The layout steps of a keep-dims row statistic, at an index -/

/-- A vector of 2048 row values viewed as a 2048 × 1 column reads row `r`'s value at (r, 0). -/
theorem colCast {α : Type} (v : S2048.Idx → α) (h : S2048.ShapeCasts S2048x1) (r : Fin 2048) (z : Fin 1) :
    shapeCast S2048x1 v h (ix2 r z) = v (ix1 r) :=
  shapeCast_apply v h (ix2 r z) (ix1 r) (by
    rewrite [Shape.rowMajor_val_one, Shape.rowMajor_val_two]
    have := z.isLt
    show r.val = r.val * 1 + z.val
    omega)

/-- A 2048 × 1 column spread along the rows reads the row's value at every pixel. -/
theorem rowSpread {α : Type} (v : S2048x1.Idx → α) (h : S2048x1.Broadcasts S2048x256) (r : Fin 2048) (k : Fin 256) :
    broadcastTo S2048x256 v h (ix2 r k) = v (ix2 r 0) :=
  broadcastTo_apply v h (ix2 r k) (ix2 r 0) (fun a => match a with
    | ⟨0, _⟩ => by show r.val = if (2048 : Nat) = 1 then 0 else r.val; rw [if_neg (by decide)]
    | ⟨1, _⟩ => by show 0 = if (1 : Nat) = 1 then 0 else k.val; rw [if_pos rfl])

/-- The sum along a row. -/
theorem laneSum (x : FVec Ideal S2048x256 .f32) (h : S2048x256.Reduces [1] S2048) (hφ : FKind.Formats .f32)
    (hacc : (0x00000000#32 : BitVec 32) = FKind.add.neutral .f32 hφ) (r : Fin 2048) :
    multiReduction .add [1] S2048 x 0x00000000#32 h hφ hacc (ix1 r) = ∑ k : Fin 256, x (ix2 r k) := by
  refine (Ideal.multiReduction_add_single x _ h hφ hacc (ix1 r)).trans ?_
  refine Finset.sum_congr rfl fun k _ => congrArg x ?_
  funext a; match a with | ⟨0, _⟩ => rfl | ⟨1, _⟩ => rfl

/-- The sum down a column. -/
theorem colSum (x : FVec Ideal S2048x1 .f32) (h : S2048x1.Reduces [0] S1) (hφ : FKind.Formats .f32)
    (hacc : (0x00000000#32 : BitVec 32) = FKind.add.neutral .f32 hφ) (z : Fin 1) :
    multiReduction .add [0] S1 x 0x00000000#32 h hφ hacc (ix1 z) = ∑ r : Fin 2048, x (ix2 r z) := by
  refine (Ideal.multiReduction_add_single x _ h hφ hacc (ix1 z)).trans ?_
  refine Finset.sum_congr rfl fun r _ => congrArg x ?_
  funext a; match a with | ⟨0, _⟩ => rfl | ⟨1, _⟩ => rfl

/-- One value viewed as a 1 × 1 block. -/
theorem unitCast {α : Type} (v : S1.Idx → α) (h : S1.ShapeCasts S1x1) (z z' : Fin 1) :
    shapeCast S1x1 v h (ix2 z z') = v (ix1 0) :=
  shapeCast_apply v h (ix2 z z') (ix1 0) (by
    rewrite [Shape.rowMajor_val_one, Shape.rowMajor_val_two]
    have := z.isLt; have := z'.isLt
    show 0 = z.val * 1 + z'.val
    omega)

/-! ## The body's row statistics as vector operations, and each at an index -/

/-- Row `r` of a tile. -/
abbrev trow (x : FVec Ideal S2048x256 .f32) (r : Fin 2048) : Fin 256 → EReal := fun k => x (ix2 r k)

/-- The keep-dims row sums of a tile. -/
def vSum (x : FVec Ideal S2048x256 .f32) : FVec Ideal S2048x1 .f32 :=
  shapeCast S2048x1 (multiReduction .add [1] S2048 x 0x00000000#32 reduces_S2048x256_S2048 (.inl rfl) rfl) shapeCasts_S2048_S2048x1
theorem vSum_apply (x : FVec Ideal S2048x256 .f32) (r : Fin 2048) (z : Fin 1) : vSum x (ix2 r z) = ∑ k : Fin 256, x (ix2 r k) :=
  (colCast _ _ r z).trans (laneSum x _ _ _ r)

/-- 256 in every row. -/
def c256v : FVec Ideal S2048x1 .f32 := broadcast S2048x1 (Scalar.ofBits .f32 0x43800000#32)

/-- The rows' means. -/
def vMean (x : FVec Ideal S2048x256 .f32) : FVec Ideal S2048x1 .f32 := divf (vSum x) c256v
theorem vMean_apply (x : FVec Ideal S2048x256 .f32) (r : Fin 2048) (z : Fin 1) : vMean x (ix2 r z) = mean (trow x r) :=
  congrArg (Ideal.div · c256) (vSum_apply x r z)

/-- Each pixel's deviation from its row's mean. -/
def vDev (x : FVec Ideal S2048x256 .f32) : FVec Ideal S2048x256 .f32 :=
  subf x (broadcastTo S2048x256 (vMean x) broadcasts_S2048x1_S2048x256)
theorem vDev_apply (x : FVec Ideal S2048x256 .f32) (r : Fin 2048) (k : Fin 256) :
    vDev x (ix2 r k) = x (ix2 r k) - mean (trow x r) := by
  show x (ix2 r k) - broadcastTo S2048x256 (vMean x) broadcasts_S2048x1_S2048x256 (ix2 r k) = _
  rw [rowSpread, vMean_apply]

/-- The rows' spreads. -/
def vSpread (x : FVec Ideal S2048x256 .f32) : FVec Ideal S2048x1 .f32 :=
  sqrt (divf (vSum (mulf (vDev x) (vDev x))) c256v)
theorem vSpread_apply (x : FVec Ideal S2048x256 .f32) (r : Fin 2048) (z : Fin 1) : vSpread x (ix2 r z) = spread (trow x r) := by
  show Ideal.sqrt (Ideal.div (vSum (mulf (vDev x) (vDev x)) (ix2 r z)) c256) = _
  rw [vSum_apply]
  refine congrArg (fun s => Ideal.sqrt (Ideal.div s c256)) (Finset.sum_congr rfl fun k _ => ?_)
  show vDev x (ix2 r k) * vDev x (ix2 r k) = _
  rw [vDev_apply]

/-- The two source rows' total spread plus the tiny constant. -/
def vTotal (x1 x2 : FVec Ideal S2048x256 .f32) : FVec Ideal S2048x1 .f32 :=
  addf (addf (vSpread x1) (vSpread x2)) (broadcast S2048x1 (Scalar.ofBits .f32 0x358637BD#32))
theorem vTotal_apply (x1 x2 : FVec Ideal S2048x256 .f32) (r : Fin 2048) (z : Fin 1) :
    vTotal x1 x2 (ix2 r z) = total (trow x1 r) (trow x2 r) := by
  show vSpread x1 (ix2 r z) + vSpread x2 (ix2 r z) + tiny = _
  rw [vSpread_apply, vSpread_apply]; rfl

/-- The blend of the two source tiles. -/
def vBlend (x1 x2 : FVec Ideal S2048x256 .f32) : FVec Ideal S2048x256 .f32 :=
  addf (mulf (broadcastTo S2048x256 (divf (vSpread x1) (vTotal x1 x2)) broadcasts_S2048x1_S2048x256) x1)
    (mulf (broadcastTo S2048x256 (divf (vSpread x2) (vTotal x1 x2)) broadcasts_S2048x1_S2048x256) x2)
theorem vBlend_apply (x1 x2 : FVec Ideal S2048x256 .f32) (r : Fin 2048) (k : Fin 256) :
    vBlend x1 x2 (ix2 r k) = blend (trow x1 r) (trow x2 r) k := by
  show broadcastTo S2048x256 (divf (vSpread x1) (vTotal x1 x2)) broadcasts_S2048x1_S2048x256 (ix2 r k) * x1 (ix2 r k)
      + broadcastTo S2048x256 (divf (vSpread x2) (vTotal x1 x2)) broadcasts_S2048x1_S2048x256 (ix2 r k) * x2 (ix2 r k) = _
  rw [rowSpread, rowSpread]
  show Ideal.div (vSpread x1 (ix2 r 0)) (vTotal x1 x2 (ix2 r 0)) * x1 (ix2 r k)
      + Ideal.div (vSpread x2 (ix2 r 0)) (vTotal x1 x2 (ix2 r 0)) * x2 (ix2 r k) = _
  rw [vSpread_apply, vSpread_apply, vTotal_apply]; rfl

/-- The gaps of a tile. -/
def vGap (x0 x1 x2 : FVec Ideal S2048x256 .f32) : FVec Ideal S2048x256 .f32 := absf (subf x0 (vBlend x1 x2))
theorem vGap_apply (x0 x1 x2 : FVec Ideal S2048x256 .f32) (r : Fin 2048) (k : Fin 256) :
    vGap x0 x1 x2 (ix2 r k) = gap (trow x0 r) (trow x1 r) (trow x2 r) k := by
  show max (x0 (ix2 r k) - vBlend x1 x2 (ix2 r k)) (-(x0 (ix2 r k) - vBlend x1 x2 (ix2 r k))) = _
  rw [vBlend_apply]; rfl

/-! ## The payloads are these operations -/

theorem pay4_eq (x : FVec Ideal S2048x256 .f32) : k0_pay4 (F := Ideal) x = x := by unfold k0_pay4; exact shapeCast_self _ _
theorem pay5_eq (x : FVec Ideal S2048x256 .f32) : k0_pay5 (F := Ideal) x = x := by unfold k0_pay5; exact shapeCast_self _ _
theorem pay6_eq (x : FVec Ideal S2048x256 .f32) : k0_pay6 (F := Ideal) x = x := by unfold k0_pay6; exact shapeCast_self _ _

theorem pay7_eq (x : FVec Ideal S2048x256 .f32) : k0_pay7 (F := Ideal) x = vSpread x := by
  unfold k0_pay7
  rw [pay5_eq]
  unfold vSpread vDev vMean vSum c256v
  dsimp only
theorem pay8_eq (x : FVec Ideal S2048x256 .f32) : k0_pay8 (F := Ideal) x = vSpread x := by
  unfold k0_pay8
  rw [pay6_eq]
  unfold vSpread vDev vMean vSum c256v
  dsimp only
theorem pay9_eq (x1 x2 : FVec Ideal S2048x256 .f32) : k0_pay9 (F := Ideal) x1 x2 = vTotal x1 x2 := by
  unfold k0_pay9
  rw [pay7_eq, pay8_eq]
  try (first | rfl | (unfold vTotal; dsimp only))

theorem pay10_eq (x1 x2 : FVec Ideal S2048x256 .f32) :
    k0_pay10 (F := Ideal) x1 x2 = mulf (broadcastTo S2048x256 (divf (vSpread x1) (vTotal x1 x2)) broadcasts_S2048x1_S2048x256) x1 := by
  unfold k0_pay10
  rw [pay7_eq, pay9_eq, pay5_eq]
  try (first | rfl | dsimp only)
theorem pay11_eq (x1 x2 : FVec Ideal S2048x256 .f32) :
    k0_pay11 (F := Ideal) x1 x2 = broadcastTo S2048x256 (divf (vSpread x2) (vTotal x1 x2)) broadcasts_S2048x1_S2048x256 := by
  unfold k0_pay11
  rw [pay8_eq, pay9_eq]
  try (first | rfl | dsimp only)

/-- The tile's step: the running sum plus the column sum of the rows' sums of gaps. -/
theorem tileAdd_eq (x0 x1 x2 : FVec Ideal S2048x256 .f32) (acc : Vec Ideal S1x1 .f32) :
    tileAdd x0 x1 x2 acc
      = addf (shapeCast S1x1 acc shapeCasts_S1x1_S1x1)
          (shapeCast S1x1 (multiReduction .add [0] S1 (vSum (vGap x0 x1 x2)) 0x00000000#32 reduces_S2048x1_S1 (.inl rfl) rfl) shapeCasts_S1_S1x1) := by
  unfold tileAdd k0_pay1
  rw [pay4_eq, pay6_eq, pay10_eq, pay11_eq]
  try (first | rfl | (unfold vGap vBlend vSum; dsimp only))

/-- At the extended reals: the running sum plus the sum over the tile's rows of the row's sum of gaps. -/
theorem tileAdd_apply (x0 x1 x2 : FVec Ideal S2048x256 .f32) (acc : Vec Ideal S1x1 .f32) (z z' : Fin 1) :
    tileAdd x0 x1 x2 acc (ix2 z z') = acc (ix2 z z') + ∑ r : Fin 2048, rowLoss (trow x0 r) (trow x1 r) (trow x2 r) := by
  rw [tileAdd_eq]
  show shapeCast S1x1 acc shapeCasts_S1x1_S1x1 (ix2 z z') + shapeCast S1x1 _ shapeCasts_S1_S1x1 (ix2 z z') = _
  rw [shapeCast_self, unitCast]
  refine congrArg (acc (ix2 z z') + ·) ?_
  refine (colSum _ _ _ _ 0).trans ?_
  exact Finset.sum_congr rfl fun r _ => (vSum_apply _ r 0).trans (Finset.sum_congr rfl fun k _ => vGap_apply x0 x1 x2 r k)

/-- A tile's sum of gaps: over its rows, the row's sum of gaps. -/
def blockLoss (x0 x1 x2 : FVec Ideal S2048x256 .f32) : EReal := ∑ r : Fin 2048, rowLoss (trow x0 r) (trow x1 r) (trow x2 r)
theorem tileAdd_block (x0 x1 x2 : FVec Ideal S2048x256 .f32) (acc : Vec Ideal S1x1 .f32) (z z' : Fin 1) :
    tileAdd x0 x1 x2 acc (ix2 z z') = acc (ix2 z z') + blockLoss x0 x1 x2 := tileAdd_apply x0 x1 x2 acc z z'

/-- The first tile's running sum starts from zero, -/
theorem pay3_apply (j : S1x1.Idx) : k0_pay3 (F := Ideal) j = 0 := Ideal.ofBits_zero_f32
/-- and the last tile's total is divided by the number of pixels. -/
theorem pay2_apply (v : Vec Ideal S1x1 .f32) (j : S1x1.Idx) : k0_pay2 (F := Ideal) v j = Ideal.div (v j) count := by
  unfold k0_pay2
  show Ideal.div (shapeCast S1x1 v shapeCasts_S1x1_S1x1 j) count = _
  rw [shapeCast_self]

end Cert.KernelIdeal.Loss

end
-- ==== Proof.KernelIdeal.Sum.lean ====
/-
  The region's result at the extended reals. Across the 24 tiles the running sum grows by each tile's sum of gaps,
  starting from zero, and after the last tile it is divided by the number of pixels; the result window's one write-back,
  after the last tile, puts that quotient in the 1 × 1 result array, and the last host line reads it as the scalar result.
  Each input tile is 2048 consecutive rows of its 49152 × 256 array, so the 24 tiles' sums together are the sum over all
  49152 rows.
-/
import proofs.«174180_j32177894982199_1_alg».proof.Proof.KernelIdeal.Tile
import Idealize.ShloMosaic.Lib.StableHlo.Run

set_option maxRecDepth 16384

noncomputable section

namespace Cert.KernelIdeal.Loss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal.Gen Idealize.ShloMosaic.ValueIdx Cert.PatchLoss

variable (m : (ℓ : Loc nD τ sig) → Buf (Elt Ideal) ℓ) (ρ : Dev nD → PrngReg)

/-! ## The running sum -/

/-- The running sum after tile `n`, before any division. -/
def sums (c : Dev nD) : (n : ℕ) → n < cfg0.N → Vec Ideal S1x1 .f32
  | 0, h => tileAdd (iblk m c 0 ⟨0, h⟩) (iblk m c 1 ⟨0, h⟩) (iblk m c 2 ⟨0, h⟩) (k0_pay3 (F := Ideal))
  | n + 1, h => tileAdd (iblk m c 0 ⟨n + 1, h⟩) (iblk m c 1 ⟨n + 1, h⟩) (iblk m c 2 ⟨n + 1, h⟩) (sums c n (Nat.lt_of_succ_lt h))

/-- What the result buffer holds after tile `n` is the running sum, divided after the last tile. -/
theorem outsAt_eq (c : Dev nD) : ∀ (n : ℕ) (h : n < cfg0.N),
    outsAt0 m c n h = if n % 24 = 23 then k0_pay2 (sums m c n h) else sums m c n h
  | 0, h => by
    rw [if_neg (by decide)]
    exact (outsAt0_first m c ⟨0, h⟩ rfl ((hcond0_0 ⟨0, h⟩).mpr (Nat.zero_mod _))
      (fun hc => absurd (show 0 % 24 = 23 from (hcond0_1 ⟨0, h⟩).mp hc) (by decide))).trans (valFirst ..)
  | n + 1, h => by
    have hN := lt24 h
    have h0 : ¬(⟨n + 1, h⟩ : Fin cfg0.N).val % 24 = 0 := by dsimp only; omega
    have ih := outsAt_eq c n (Nat.lt_of_succ_lt h)
    rw [if_neg (by omega)] at ih
    by_cases h1 : (n + 1) % 24 = 23
    · rw [if_pos h1, outsAt0_last m c ⟨n + 1, h⟩ h0 h1 (not_first n h) ((hcond0_1 ⟨n + 1, h⟩).mpr h1), valLast]
      show k0_pay2 (tileAdd _ _ _ (outsAt0 m c n _)) = k0_pay2 (tileAdd _ _ _ (sums m c n _))
      rw [ih]
    · rw [if_neg h1, outsAt0_mid m c ⟨n + 1, h⟩ h0 h1 (not_first n h) (fun hc => h1 ((hcond0_1 ⟨n + 1, h⟩).mp hc)), valMid]
      show tileAdd _ _ _ (outsAt0 m c n _) = tileAdd _ _ _ (sums m c n _)
      rw [ih]

/-- Tile `t`'s sum of gaps. -/
def tileLoss (c : Dev nD) (t : Fin cfg0.N) : EReal := blockLoss (iblk m c 0 t) (iblk m c 1 t) (iblk m c 2 t)
/-- The same by the tile's number (zero past the grid). -/
def tileLossN (c : Dev nD) (t : ℕ) : EReal := if h : t < cfg0.N then tileLoss m c ⟨t, h⟩ else 0

theorem tileLossN_of_lt (c : Dev nD) (t : ℕ) (h : t < cfg0.N) :
    tileLossN m c t = blockLoss (iblk m c 0 ⟨t, h⟩) (iblk m c 1 ⟨t, h⟩) (iblk m c 2 ⟨t, h⟩) := by
  unfold tileLossN
  rw [dif_pos h]
  rfl

/-- The running sum after tile `n` is the sum of the first `n + 1` tiles' sums. -/
theorem sums_apply (c : Dev nD) (z z' : Fin 1) (n : ℕ) : ∀ (h : n < cfg0.N),
    sums m c n h (ix2 z z') = ∑ t ∈ Finset.range (n + 1), tileLossN m c t := by
  induction n with
  | zero =>
    intro h
    rw [Finset.sum_range_one, tileLossN_of_lt m c 0 h]
    refine (tileAdd_block (iblk m c 0 ⟨0, h⟩) (iblk m c 1 ⟨0, h⟩) (iblk m c 2 ⟨0, h⟩) (k0_pay3 (F := Ideal)) z z').trans ?_
    rw [pay3_apply, zero_add]
  | succ n ih =>
    intro h
    rw [Finset.sum_range_succ, ← ih (Nat.lt_of_succ_lt h), tileLossN_of_lt m c (n + 1) h]
    exact tileAdd_block (iblk m c 0 ⟨n + 1, h⟩) (iblk m c 1 ⟨n + 1, h⟩) (iblk m c 2 ⟨n + 1, h⟩) (sums m c n (Nat.lt_of_succ_lt h)) z z'

/-! ## The result array -/

theorem h23 : 23 < cfg0.N := by rw [show cfg0.N = 24 from N_0]; decide
/-- The last tile. -/
abbrev tLast : Fin cfg0.N := ⟨23, h23⟩

/-- The 1 × 1 result array's final contents: what the result buffer holds after the last tile. -/
abbrev result (c : Dev nD) : Buf (Elt Ideal) ((c : Thread nD τ).loc main_v69) := outsAt0 m c 23 h23

/-- The one write-back, after the last tile, writes it: the window's only block is the whole 1 × 1 array. -/
theorem flushed_eq (c : Dev nD) (t : Fin cfg0.N) (hf : (cfg0.win 3).flush t = true) :
    (dats m 0 c).flushed 3 t = ((cfg0.win 3).blk t).view.read (Elt Ideal) (result m c) := by
  have hN : cfg0.N = 24 := N_0
  have h3 : t.val = 23 := by have := (flush0_3 t).mp hf; have := t.isLt; omega
  obtain rfl : t = tLast := Fin.ext h3
  show (cfg0.win 3).cut (grid0.coords tLast) ((dats m 0 c).after 3 tLast) = _
  rw [after0_3]
  have hz' : (fun a => win0_3.index tLast a * main_v69.ty.shape.size a) = fun _ => 0 := funext fun a => by fin_cases a <;> decide +kernel
  exact (Memref.read_access_unit_zero (Elt Ideal) main_v69 hz' (fun a => by rw [congrFun hz' a]; simp) (result m c)).symm

/-- So the result array ends holding it. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v69).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The scalar the last host line leaves: the 1 × 1 result array read as a scalar. -/
theorem tail_result (c : Dev nD) :
    Pipeline.afterTail₀ cfgs (dats m) 0 (V0 m) [hostOps1] c main_v70
      = shapeCast S_ (result m c) shapeCasts_S1x1_S_ := by
  unfold Pipeline.afterTail₀
  show StableHlo.after hostOps1 _ (Proc.devRef .tc main_v70) = _
  after_results
  exact congrArg (fun v => shapeCast S_ v shapeCasts_S1x1_S_)
    ((Pipeline.withArrays_arr spec0 launch0.win.arr_inj c _ _ 3).trans (final_o m c))

/-! ## The tiles are the rows -/

/-- The three input windows step through their arrays one tile of 2048 rows per grid point, all 256 pixels wide. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- The three patch arrays as the region finds them, 49152 rows of 256 pixels. -/
abbrev Q0 (c : Dev nD) : (⟨2, ![49152, 256]⟩ : Shape).Idx → EReal := V m c main_v66
abbrev Q1 (c : Dev nD) : (⟨2, ![49152, 256]⟩ : Shape).Idx → EReal := V m c main_v67
abbrev Q2 (c : Dev nD) : (⟨2, ![49152, 256]⟩ : Shape).Idx → EReal := V m c main_v68

/-- Tile `t`'s row `r` is row `2048 t + r` of the array. -/
theorem iblk0_row (c : Dev nD) (t : Fin 24) (ht : t.val < cfg0.N) (r : Fin 2048) :
    trow (iblk m c 0 ⟨t.val, ht⟩) r = row2 (Q0 m c) (tileRow t r) := by
  funext k
  show iblk m c 0 ⟨t.val, ht⟩ (ix2 r k) = V m c main_v66 (ix2 (tileRow t r) k)
  unfold iblk
  rw [View.read_apply]
  show V m c main_v66 _ = V m c main_v66 _
  congr 1
  funext a
  apply Fin.ext
  match a with
  | ⟨0, _⟩ =>
    have e0 : win0_0.index ⟨t.val, ht⟩ 0 = t.val := (index0 ⟨t.val, ht⟩).1
    show win0_0.index ⟨t.val, ht⟩ 0 * 2048 + 1 * r.val = t.val * 2048 + r.val
    rw [e0]; omega
  | ⟨1, _⟩ =>
    have e1 : win0_0.index ⟨t.val, ht⟩ 1 = 0 := (index0 ⟨t.val, ht⟩).2
    show win0_0.index ⟨t.val, ht⟩ 1 * 256 + 1 * k.val = k.val
    rw [e1]; omega
theorem iblk1_row (c : Dev nD) (t : Fin 24) (ht : t.val < cfg0.N) (r : Fin 2048) :
    trow (iblk m c 1 ⟨t.val, ht⟩) r = row2 (Q1 m c) (tileRow t r) := by
  funext k
  show iblk m c 1 ⟨t.val, ht⟩ (ix2 r k) = V m c main_v67 (ix2 (tileRow t r) k)
  unfold iblk
  rw [View.read_apply]
  show V m c main_v67 _ = V m c main_v67 _
  congr 1
  funext a
  apply Fin.ext
  match a with
  | ⟨0, _⟩ =>
    have e0 : win0_1.index ⟨t.val, ht⟩ 0 = t.val := (index1 ⟨t.val, ht⟩).1
    show win0_1.index ⟨t.val, ht⟩ 0 * 2048 + 1 * r.val = t.val * 2048 + r.val
    rw [e0]; omega
  | ⟨1, _⟩ =>
    have e1 : win0_1.index ⟨t.val, ht⟩ 1 = 0 := (index1 ⟨t.val, ht⟩).2
    show win0_1.index ⟨t.val, ht⟩ 1 * 256 + 1 * k.val = k.val
    rw [e1]; omega
theorem iblk2_row (c : Dev nD) (t : Fin 24) (ht : t.val < cfg0.N) (r : Fin 2048) :
    trow (iblk m c 2 ⟨t.val, ht⟩) r = row2 (Q2 m c) (tileRow t r) := by
  funext k
  show iblk m c 2 ⟨t.val, ht⟩ (ix2 r k) = V m c main_v68 (ix2 (tileRow t r) k)
  unfold iblk
  rw [View.read_apply]
  show V m c main_v68 _ = V m c main_v68 _
  congr 1
  funext a
  apply Fin.ext
  match a with
  | ⟨0, _⟩ =>
    have e0 : win0_2.index ⟨t.val, ht⟩ 0 = t.val := (index2 ⟨t.val, ht⟩).1
    show win0_2.index ⟨t.val, ht⟩ 0 * 2048 + 1 * r.val = t.val * 2048 + r.val
    rw [e0]; omega
  | ⟨1, _⟩ =>
    have e1 : win0_2.index ⟨t.val, ht⟩ 1 = 0 := (index2 ⟨t.val, ht⟩).2
    show win0_2.index ⟨t.val, ht⟩ 1 * 256 + 1 * k.val = k.val
    rw [e1]; omega

/-- The 24 tiles' sums are the sum over all rows. -/
theorem sum_tileLoss (c : Dev nD) : ∑ t ∈ Finset.range 24, tileLossN m c t = sumRows (Q0 m c) (Q1 m c) (Q2 m c) := by
  rw [Finset.sum_range]
  unfold sumRows
  rw [← sum_tiles fun R => rowLoss (row2 (Q0 m c) R) (row2 (Q1 m c) R) (row2 (Q2 m c) R)]
  refine Finset.sum_congr rfl fun t _ => ?_
  have ht : t.val < cfg0.N := lt_of_lt_of_eq t.isLt (show cfg0.N = 24 from N_0).symm
  rw [tileLossN_of_lt m c t.val ht]
  unfold blockLoss
  refine Finset.sum_congr rfl fun r _ => ?_
  rw [iblk0_row m c t ht r, iblk1_row m c t ht r, iblk2_row m c t ht r]

/-- The result array's one entry: the sum over all rows, divided by the number of pixels. -/
theorem result_apply (c : Dev nD) (z z' : Fin 1) :
    result m c (ix2 z z') = Ideal.div (sumRows (Q0 m c) (Q1 m c) (Q2 m c)) count := by
  show outsAt0 m c 23 h23 (ix2 z z') = _
  rw [outsAt_eq m c 23 h23, if_pos (by decide), pay2_apply, sums_apply m c z z' 23 h23, sum_tileLoss]

/-! ## The run, read -/

/-- Every weakly fair execution terminates with the scalar result at the loss of the three patch arrays and the four
    arguments unchanged. -/
theorem run : θ_run defs (onTc (τ := τ) (main (F := Ideal))) ⟨m, fun _ => 0, ρ⟩ fun r => ∀ c : Dev nD,
      r.2.mem ((c.tc : Thread nD τ).loc main_v70) = (fun _ => Ideal.div (sumRows (Q0 m c) (Q1 m c) (Q2 m c)) count)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v70 (Pipeline.mem_restRefs_of main_v70 (by decide) (by decide))).trans ((tail_result m c).trans (by
        funext j
        refine (shapeCast_apply (result m c) shapeCasts_S1x1_S_ j (ix2 (0 : Fin 1) (0 : Fin 1)) (by
          show (S1x1.rowMajor (ix2 (0 : Fin 1) (0 : Fin 1))).val = (S_.rowMajor j).val
          rewrite [Shape.rowMajor_val_two]
          have h : (S_.rowMajor j).val < 1 := lt_of_lt_of_eq (S_.rowMajor j).isLt (by decide)
          show (0 : Nat) * 1 + 0 = (S_.rowMajor j).val
          omega)).trans ?_
        exact result_apply m c 0 0)),
      ((h c).2 main_arg0 (Pipeline.mem_restRefs_of main_arg0 (by decide) (by decide))).trans
        ((tail_keeps m (dats m) c main_arg0 (by decide) (by decide)).trans (V_main_arg0 m c)),
      ((h c).2 main_arg1 (Pipeline.mem_restRefs_of main_arg1 (by decide) (by decide))).trans
        ((tail_keeps m (dats m) c main_arg1 (by decide) (by decide)).trans (V_main_arg1 m c)),
      ((h c).2 main_arg2 (Pipeline.mem_restRefs_of main_arg2 (by decide) (by decide))).trans
        ((tail_keeps m (dats m) c main_arg2 (by decide) (by decide)).trans (V_main_arg2 m c)),
      ((h c).2 main_arg3 (Pipeline.mem_restRefs_of main_arg3 (by decide) (by decide))).trans
        ((tail_keeps m (dats m) c main_arg3 (by decide) (by decide)).trans (V_main_arg3 m c))⟩) (run_main m ρ)

end Cert.KernelIdeal.Loss

end
-- ==== Proof.Rows.lean ====
/-
  The row-major recoding of the patch arrays. A 4 × 3 × 4096 × 256 array (image, channel, patch, pixel) and the
  49152 × 256 array of the same elements in row-major order have the same rows: row (image · 3 + channel) · 4096 + patch
  of the second is the pixels of that patch of that channel of that image. So the sum, over every element of the first,
  of the gap computed from its row is the sum over the second's rows of the row's sum of gaps.
-/
import proofs.«174180_j32177894982199_1_alg».proof.Proof.Spec
import Idealize.ShloMosaic.Lib.Pipeline.Value

set_option maxRecDepth 16384

noncomputable section

open scoped BigOperators

namespace Cert.PatchLoss

open Idealize.ShloMosaic Idealize.ShloMosaic.ValueIdx

/-- The four-axis shape of the patch arrays. -/
abbrev S4 : Shape := ⟨4, ![4, 3, 4096, 256]⟩
/-- Their two-axis shape. -/
abbrev S2 : Shape := ⟨2, ![49152, 256]⟩

/-- The pixels of patch `n` of channel `b` of image `a`. -/
def prow (P : S4.Idx → EReal) (a : Fin 4) (b : Fin 3) (n : Fin 4096) : Fin 256 → EReal := fun k => P (ix4 a b n k)

/-- The recoding keeps the rows: row `R` of the two-axis array is one patch of one channel of one image, pixel for
    pixel. -/
theorem reshape_rows (hc : S4.ShapeCasts S2) (R : Fin 49152) :
    ∃ (a : Fin 4) (b : Fin 3) (n : Fin 4096), ∀ k : Fin 256, Shape.reshapeEquiv hc (ix2 R k) = ix4 a b n k := by
  have hR := R.isLt
  refine ⟨⟨R.val / 12288, by omega⟩, ⟨R.val / 4096 % 3, by omega⟩, ⟨R.val % 4096, by omega⟩, fun k => ?_⟩
  refine Shape.reshapeEquiv_eq_of_rowMajor hc ?_
  rewrite [Shape.rowMajor_val_four, Shape.rowMajor_val_two]
  show ((R.val / 12288 * 3 + R.val / 4096 % 3) * 4096 + R.val % 4096) * 256 + k.val = R.val * 256 + k.val
  omega

/-- The sum over every element of the four-axis arrays of a quantity that, at each element, is the gap computed from the
    element's patch, is the sum over the recoded arrays' rows of the row's sum of gaps. -/
theorem sum_gaps_reshape (hc : S4.ShapeCasts S2) (P0 P1 P2 : S4.Idx → EReal) (F : S4.Idx → EReal)
    (hF : ∀ (a : Fin 4) (b : Fin 3) (n : Fin 4096) (k : Fin 256),
      F (ix4 a b n k) = gap (prow P0 a b n) (prow P1 a b n) (prow P2 a b n) k) :
    ∑ j : S4.Idx, F j = sumRows (shapeCast S2 P0 hc) (shapeCast S2 P1 hc) (shapeCast S2 P2 hc) := by
  rw [← Equiv.sum_comp (Shape.reshapeEquiv hc) F, sum_idx2]
  unfold sumRows rowLoss
  refine Finset.sum_congr rfl fun R _ => ?_
  obtain ⟨a, b, n, h⟩ := reshape_rows hc R
  refine Finset.sum_congr rfl fun k _ => ?_
  rw [h k, hF a b n k]
  have hp : ∀ P : S4.Idx → EReal, prow P a b n = row2 (shapeCast S2 P hc) R :=
    fun P => funext fun k' => (congrArg P (h k')).symm
  rw [hp P0, hp P1, hp P2]

end Cert.PatchLoss

end
-- ==== Proof.Reference.lean ====
/-
  The reference at the extended reals, one host line at a time. After the three patch arrays (image, channel, patch,
  pixel) it takes each source patch's mean and spread with the pixel axis kept, forms the blend and the gap at every
  element, sums the gaps over all four axes from zero, and divides by the number of pixels. Read at an index each line is
  the plain formula; the sum over all elements is the sum over the rows of the arrays recoded as 49152 rows of 256.
-/
import proofs.«174180_j32177894982199_1_alg».proof.Proof.Gen.ReferenceIdeal.Read
import proofs.«174180_j32177894982199_1_alg».proof.Proof.Rows

set_option maxRecDepth 16384

noncomputable section

open scoped BigOperators

namespace Cert.ReferenceIdeal.Loss

open Cert.ReferenceIdeal Cert.ReferenceIdeal.Gen Cert.ReferenceIdeal.Read
open Idealize.ShloMosaic Idealize.ShloMosaic.ValueIdx Cert.PatchLoss

variable (x0 x1 x2 : (⟨S4x3x512x512, .f32⟩ : BufTy).Contents (Elt Ideal)) (x3 : (⟨S4x4096x2, .i32⟩ : BufTy).Contents (Elt Ideal))

/-! ### The statistics of source 1's rows -/

/-- The sum of a row. -/
theorem rowsum1 (a : Fin 4) (b : Fin 3) (n : Fin 4096) :
    val_main_v66 (F := Ideal) x1 x3 (ix3 a b n) = ∑ k : Fin 256, val_main_v43 (F := Ideal) x1 x3 (ix4 a b n k) := by
  rw [val_main_v66_apply, val_main_cst_apply]
  show Ideal.ofBits .f32 0x00000000#32 + _ = _
  rw [Ideal.ofBits_zero_f32, zero_add]
  exact Finset.sum_congr rfl fun k _ => congrArg _ (funext fun e => match e with
    | ⟨0, _⟩ => rfl | ⟨1, _⟩ => rfl | ⟨2, _⟩ => rfl | ⟨3, _⟩ => rfl)

/-- The row's mean, kept as a column. -/
theorem mean1 (a : Fin 4) (b : Fin 3) (n : Fin 4096) (z : Fin 1) :
    val_main_v69 (F := Ideal) x1 x3 (ix4 a b n z) = mean (prow (val_main_v43 (F := Ideal) x1 x3) a b n) := by
  rw [val_main_v69_apply, val_main_v67_apply, val_main_v68_apply, val_main_cst_14_apply]
  rw [show idx_main_v67 (ix4 a b n z) = ix3 a b n from funext fun e => match e with
    | ⟨0, _⟩ => rfl | ⟨1, _⟩ => rfl | ⟨2, _⟩ => rfl, rowsum1]
  rfl

/-- A pixel's deviation from its row's mean. -/
theorem dev1 (a : Fin 4) (b : Fin 3) (n : Fin 4096) (k : Fin 256) :
    val_main_v75 (F := Ideal) x1 x3 (ix4 a b n k)
      = val_main_v43 (F := Ideal) x1 x3 (ix4 a b n k) - mean (prow (val_main_v43 (F := Ideal) x1 x3) a b n) := by
  rw [val_main_v75_apply, val_main_v74_apply]
  rw [show idx_main_v74 (ix4 a b n k) = ix4 a b n (0 : Fin 1) from funext fun e => match e with
    | ⟨0, _⟩ => rfl | ⟨1, _⟩ => rfl | ⟨2, _⟩ => rfl | ⟨3, _⟩ => rfl, mean1]
  rfl

/-- The row's spread, kept as a column. -/
theorem spread1 (a : Fin 4) (b : Fin 3) (n : Fin 4096) (z : Fin 1) :
    val_main_v81 (F := Ideal) x1 x3 (ix4 a b n z) = spread (prow (val_main_v43 (F := Ideal) x1 x3) a b n) := by
  rw [val_main_v81_apply, val_main_v80_apply, val_main_v78_apply, val_main_v79_apply, val_main_cst_18_apply]
  rw [show idx_main_v78 (ix4 a b n z) = ix3 a b n from funext fun e => match e with
    | ⟨0, _⟩ => rfl | ⟨1, _⟩ => rfl | ⟨2, _⟩ => rfl, val_main_v77_apply, val_main_cst_17_apply]
  show Ideal.sqrt (Ideal.div (Ideal.ofBits .f32 0x00000000#32 + _) c256) = _
  rw [Ideal.ofBits_zero_f32, zero_add]
  refine congrArg (fun s => Ideal.sqrt (Ideal.div s c256)) (Finset.sum_congr rfl fun k _ => ?_)
  rw [show idx_main_v77 (ix3 a b n) k = ix4 a b n k from funext fun e => match e with
    | ⟨0, _⟩ => rfl | ⟨1, _⟩ => rfl | ⟨2, _⟩ => rfl | ⟨3, _⟩ => rfl, val_main_v76_apply, dev1]
  rfl

/-! ### The statistics of source 2's rows -/

/-- The sum of a row. -/
theorem rowsum2 (a : Fin 4) (b : Fin 3) (n : Fin 4096) :
    val_main_v70 (F := Ideal) x2 x3 (ix3 a b n) = ∑ k : Fin 256, val_main_v65 (F := Ideal) x2 x3 (ix4 a b n k) := by
  rw [val_main_v70_apply, val_main_cst_15_apply]
  show Ideal.ofBits .f32 0x00000000#32 + _ = _
  rw [Ideal.ofBits_zero_f32, zero_add]
  exact Finset.sum_congr rfl fun k _ => congrArg _ (funext fun e => match e with
    | ⟨0, _⟩ => rfl | ⟨1, _⟩ => rfl | ⟨2, _⟩ => rfl | ⟨3, _⟩ => rfl)

/-- The row's mean, kept as a column. -/
theorem mean2 (a : Fin 4) (b : Fin 3) (n : Fin 4096) (z : Fin 1) :
    val_main_v73 (F := Ideal) x2 x3 (ix4 a b n z) = mean (prow (val_main_v65 (F := Ideal) x2 x3) a b n) := by
  rw [val_main_v73_apply, val_main_v71_apply, val_main_v72_apply, val_main_cst_16_apply]
  rw [show idx_main_v71 (ix4 a b n z) = ix3 a b n from funext fun e => match e with
    | ⟨0, _⟩ => rfl | ⟨1, _⟩ => rfl | ⟨2, _⟩ => rfl, rowsum2]
  rfl

/-- A pixel's deviation from its row's mean. -/
theorem dev2 (a : Fin 4) (b : Fin 3) (n : Fin 4096) (k : Fin 256) :
    val_main_v83 (F := Ideal) x2 x3 (ix4 a b n k)
      = val_main_v65 (F := Ideal) x2 x3 (ix4 a b n k) - mean (prow (val_main_v65 (F := Ideal) x2 x3) a b n) := by
  rw [val_main_v83_apply, val_main_v82_apply]
  rw [show idx_main_v82 (ix4 a b n k) = ix4 a b n (0 : Fin 1) from funext fun e => match e with
    | ⟨0, _⟩ => rfl | ⟨1, _⟩ => rfl | ⟨2, _⟩ => rfl | ⟨3, _⟩ => rfl, mean2]
  rfl

/-- The row's spread, kept as a column. -/
theorem spread2 (a : Fin 4) (b : Fin 3) (n : Fin 4096) (z : Fin 1) :
    val_main_v89 (F := Ideal) x2 x3 (ix4 a b n z) = spread (prow (val_main_v65 (F := Ideal) x2 x3) a b n) := by
  rw [val_main_v89_apply, val_main_v88_apply, val_main_v86_apply, val_main_v87_apply, val_main_cst_20_apply]
  rw [show idx_main_v86 (ix4 a b n z) = ix3 a b n from funext fun e => match e with
    | ⟨0, _⟩ => rfl | ⟨1, _⟩ => rfl | ⟨2, _⟩ => rfl, val_main_v85_apply, val_main_cst_19_apply]
  show Ideal.sqrt (Ideal.div (Ideal.ofBits .f32 0x00000000#32 + _) c256) = _
  rw [Ideal.ofBits_zero_f32, zero_add]
  refine congrArg (fun s => Ideal.sqrt (Ideal.div s c256)) (Finset.sum_congr rfl fun k _ => ?_)
  rw [show idx_main_v85 (ix3 a b n) k = ix4 a b n k from funext fun e => match e with
    | ⟨0, _⟩ => rfl | ⟨1, _⟩ => rfl | ⟨2, _⟩ => rfl | ⟨3, _⟩ => rfl, val_main_v84_apply, dev2]
  rfl

/-! ### The blend and the gap -/

/-- The two spreads' total plus the tiny constant, kept as a column. -/
theorem total_ref (a : Fin 4) (b : Fin 3) (n : Fin 4096) (z : Fin 1) :
    val_main_v92 (F := Ideal) x1 x2 x3 (ix4 a b n z)
      = total (prow (val_main_v43 (F := Ideal) x1 x3) a b n) (prow (val_main_v65 (F := Ideal) x2 x3) a b n) := by
  rw [val_main_v92_apply, val_main_v90_apply, val_main_v91_apply, val_main_cst_21_apply, spread1, spread2]
  rfl

/-- The gap at an element. -/
theorem gap_ref (a : Fin 4) (b : Fin 3) (n : Fin 4096) (k : Fin 256) :
    val_main_v101 (F := Ideal) x0 x1 x2 x3 (ix4 a b n k)
      = gap (prow (val_main_v21 (F := Ideal) x0 x3) a b n) (prow (val_main_v43 (F := Ideal) x1 x3) a b n)
          (prow (val_main_v65 (F := Ideal) x2 x3) a b n) k := by
  rw [val_main_v101_apply, val_main_v100_apply, val_main_v99_apply, val_main_v95_apply, val_main_v98_apply,
    val_main_v94_apply, val_main_v97_apply]
  rw [show idx_main_v94 (ix4 a b n k) = ix4 a b n (0 : Fin 1) from funext fun e => match e with
      | ⟨0, _⟩ => rfl | ⟨1, _⟩ => rfl | ⟨2, _⟩ => rfl | ⟨3, _⟩ => rfl,
    show idx_main_v97 (ix4 a b n k) = ix4 a b n (0 : Fin 1) from funext fun e => match e with
      | ⟨0, _⟩ => rfl | ⟨1, _⟩ => rfl | ⟨2, _⟩ => rfl | ⟨3, _⟩ => rfl,
    val_main_v93_apply, val_main_v96_apply, spread1, spread2, total_ref]
  rfl

/-- The reference's result: the sum of the gaps over the recoded arrays' rows, divided by the number of pixels. -/
theorem value (hc : S4.ShapeCasts S2) (i : S_.Idx) :
    val_main_v103 (F := Ideal) x0 x1 x2 x3 i
      = Ideal.div (sumRows (shapeCast S2 (val_main_v21 (F := Ideal) x0 x3) hc) (shapeCast S2 (val_main_v43 (F := Ideal) x1 x3) hc)
          (shapeCast S2 (val_main_v65 (F := Ideal) x2 x3) hc)) count := by
  rw [val_main_v103_apply, val_main_v102_apply, val_main_cst_23_apply, val_main_cst_22_apply]
  show Ideal.div (Ideal.ofBits .f32 0x00000000#32 + _) count = _
  rw [Ideal.ofBits_zero_f32, zero_add]
  exact congrArg (Ideal.div · count)
    (sum_gaps_reshape hc _ _ _ (val_main_v101 (F := Ideal) x0 x1 x2 x3) (gap_ref x0 x1 x2 x3))

end Cert.ReferenceIdeal.Loss

end
-- ==== Proof.Patches.lean ====
/-
  The two programs gather the same patches. Before its region the kernel's @main runs, line for line, the reference's
  own first host lines — the corner coordinates wrapped and clamped, the 16 × 16 windows gathered from each image,
  flattened to 256 pixels and the channel axis moved forward — and then recodes each (image, channel, patch, pixel) array
  as 49152 rows of 256. So the three arrays the region finds are the reference's three patch arrays recoded.
-/
import proofs.«174180_j32177894982199_1_alg».proof.Proof.KernelIdeal.Sum
import proofs.«174180_j32177894982199_1_alg».proof.Proof.Reference

noncomputable section

namespace Cert.Proof.Patches

open Idealize.ShloMosaic Idealize.ShloMosaic.TcCoe Idealize.SL.Sem Idealize.ShloMosaic.StableHlo Cert.PatchLoss

theorem hc : S4.ShapeCasts S2 := by decide

variable (m : (ℓ : Loc Cert.KernelIdeal.nD Cert.KernelIdeal.τ Cert.KernelIdeal.sig) → Buf (Elt Ideal) ℓ)

set_option maxRecDepth 16384 in
set_option maxHeartbeats 40000000 in
/-- The fused image's patches. -/
theorem fused_eq (c : Dev Cert.KernelIdeal.nD) :
    Cert.KernelIdeal.Loss.Q0 m c
      = shapeCast S2 (Cert.ReferenceIdeal.Read.val_main_v21 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg3))) hc := by
  show StableHlo.after Cert.KernelIdeal.Gen.hostOps0 (fun b => m (c, b)) (Proc.devRef .tc Cert.KernelIdeal.main_v66) = _
  after_results_simp <;> rfl

set_option maxRecDepth 16384 in
set_option maxHeartbeats 40000000 in
/-- The first source image's patches. -/
theorem src1_eq (c : Dev Cert.KernelIdeal.nD) :
    Cert.KernelIdeal.Loss.Q1 m c
      = shapeCast S2 (Cert.ReferenceIdeal.Read.val_main_v43 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg3))) hc := by
  show StableHlo.after Cert.KernelIdeal.Gen.hostOps0 (fun b => m (c, b)) (Proc.devRef .tc Cert.KernelIdeal.main_v67) = _
  after_results_simp <;> rfl

set_option maxRecDepth 16384 in
set_option maxHeartbeats 40000000 in
/-- The second source image's patches. -/
theorem src2_eq (c : Dev Cert.KernelIdeal.nD) :
    Cert.KernelIdeal.Loss.Q2 m c
      = shapeCast S2 (Cert.ReferenceIdeal.Read.val_main_v65 (F := Ideal)
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))) hc := by
  show StableHlo.after Cert.KernelIdeal.Gen.hostOps0 (fun b => m (c, b)) (Proc.devRef .tc Cert.KernelIdeal.main_v68) = _
  after_results_simp <;> rfl

end Cert.Proof.Patches

end
-- ==== Proof.lean ====
/-
  The patch loss: a kernel that streams 49152 patch rows of 256 pixels in 24 tiles, accumulating the sum of
  absolute differences between the fused patches and the spread-weighted blend of the two source patches, against the
  plain mean of the same quantity over all patches at once. The three frames: the word-level kernel and its idealization run their host
  lines, the region tile by tile, and the last host line, leaving the four arguments alone; the reference is host lines
  only. The idealization rewrote nothing. At the extended reals both programs end at the sum of the gaps over all rows
  divided by the number of pixels: the kernel adds the rows tile by tile, the reference all at once, and addition of
  extended reals is commutative and associative, so the grouping does not matter; the precondition is not used.
-/
import proofs.«174180_j32177894982199_1_alg».proof.Defs
import proofs.«174180_j32177894982199_1_alg».proof.Proof.Gen.Kernel
import proofs.«174180_j32177894982199_1_alg».proof.Proof.Gen.KernelIdeal
import proofs.«174180_j32177894982199_1_alg».proof.Proof.Gen.ReferenceIdeal
import proofs.«174180_j32177894982199_1_alg».proof.Proof.Gen.Pre_finite_inputs
import proofs.«174180_j32177894982199_1_alg».proof.Proof.Gen.ReferenceIdeal.Run
import proofs.«174180_j32177894982199_1_alg».proof.Proof.Gen.ReferenceIdeal.Read
import proofs.«174180_j32177894982199_1_alg».proof.Proof.Kernel.Region
import proofs.«174180_j32177894982199_1_alg».proof.Proof.KernelIdeal.Sum
import proofs.«174180_j32177894982199_1_alg».proof.Proof.Reference
import proofs.«174180_j32177894982199_1_alg».proof.Proof.Patches
import Idealize.ShloMosaic.Adequacy
import Idealize.ShloMosaic.Init

noncomputable section

namespace Cert.Proof

open Idealize.ShloMosaic Idealize.SL.Sem Cert.PatchLoss

/-- The word-level kernel runs and leaves its arguments alone. -/
theorem frame_k : Cert.frame_Kernel := fun m ρ _ => Cert.Kernel.Loss.frame (F := Bits) m ρ
/-- So does its idealization. -/
theorem frame_ki : Cert.frame_KernelIdeal := fun m ρ _ => Cert.KernelIdeal.Loss.frame (F := Ideal) m ρ
/-- The reference is host lines only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the sum of the gaps over the 49152 rows of the three recoded patch arrays, divided by the
    number of pixels. -/
theorem algebraic : Cert.algebraic_KernelIdeal_ReferenceIdeal := by
  intro m ρ m' ρ' _ hagree
  refine ⟨fun c => (fun _ => Ideal.div (sumRows (Cert.KernelIdeal.Loss.Q0 m c) (Cert.KernelIdeal.Loss.Q1 m c) (Cert.KernelIdeal.Loss.Q2 m c)) count),
    Cert.KernelIdeal.Loss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq]
  funext i
  rw [Cert.ReferenceIdeal.Loss.value _ _ _ _ Cert.Proof.Patches.hc i, (hagree c).1, (hagree c).2.1, (hagree c).2.2.1, (hagree c).2.2.2,
    ← Cert.Proof.Patches.fused_eq m c, ← Cert.Proof.Patches.src1_eq m c, ← Cert.Proof.Patches.src2_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
